-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x64x64 : Shape := ⟨4, ![2, 16, 64, 64]⟩
abbrev S2x5x64x64 : Shape := ⟨4, ![2, 5, 64, 64]⟩
abbrev S_ : Shape := ⟨0, ![]⟩

class Facts : Prop where
  bcast_S_S2x16x64x64 : S_.BroadcastsInDim S2x16x64x64 (![] : Fin 0 → Fin S2x16x64x64.rank)
  reducesTo_S2x16x64x64_S_d0_1_2_3 : S2x16x64x64.ReducesTo [0, 1, 2, 3] S_
  h_S_ : 0 < S_.numel
  bcast_S_S2x5x64x64 : S_.BroadcastsInDim S2x5x64x64 (![] : Fin 0 → Fin S2x5x64x64.rank)
  reducesTo_S2x5x64x64_S_d0_1_2_3 : S2x5x64x64.ReducesTo [0, 1, 2, 3] S_

variable [Facts]

def fn {F : FTy → Type} [FloatOps F] (main_arg0 : FVec F S2x16x64x64 .f32) (main_arg1 : FVec F S2x5x64x64 .f32) : IVec S_ 1 :=
  let main_v0 : FVec F S2x16x64x64 .f32 := Host.absf main_arg0
  let main_cst : FVec F S_ .f32 := constant S_ .f32 0x7F800000#32
  let main_v1 : FVec F S2x16x64x64 .f32 := broadcastInDim S2x16x64x64 ![] bcast_S_S2x16x64x64 main_cst
  let main_v2 : IVec S2x16x64x64 1 := cmpf .olt main_v0 main_v1
  let main_c : IVec S_ 1 := constantI S_ 1 1#1
  let main_v3 : IVec S_ 1 := (fun x v => Host.reduce IntOp.andi x v reducesTo_S2x16x64x64_S_d0_1_2_3 h_S_) main_v2 main_c
  let main_v4 : FVec F S2x5x64x64 .f32 := Host.absf main_arg1
  let main_cst_0 : FVec F S_ .f32 := constant S_ .f32 0x7F800000#32
  let main_v5 : FVec F S2x5x64x64 .f32 := broadcastInDim S2x5x64x64 ![] bcast_S_S2x5x64x64 main_cst_0
  let main_v6 : IVec S2x5x64x64 1 := cmpf .olt main_v4 main_v5
  let main_c_1 : IVec S_ 1 := constantI S_ 1 1#1
  let main_v7 : IVec S_ 1 := (fun x v => Host.reduce IntOp.andi x v reducesTo_S2x5x64x64_S_d0_1_2_3 h_S_) main_v6 main_c_1
  let main_v8 : IVec S_ 1 := andi main_v3 main_v7
  main_v8
-- ==== Kernel.lean ====
abbrev S2x16x64x64 : Shape := ⟨4, ![2, 16, 64, 64]⟩
abbrev S2x5x64x64 : Shape := ⟨4, ![2, 5, 64, 64]⟩
abbrev S2x16x4096 : Shape := ⟨3, ![2, 16, 4096]⟩
abbrev S2x5x4096 : Shape := ⟨3, ![2, 5, 4096]⟩
abbrev S_ : Shape := ⟨0, ![]⟩
abbrev S2x8x4096 : Shape := ⟨3, ![2, 8, 4096]⟩
abbrev S1 : Shape := ⟨1, ![1]⟩
abbrev S2x4096 : Shape := ⟨2, ![2, 4096]⟩
abbrev S2x1x4096 : Shape := ⟨3, ![2, 1, 4096]⟩
abbrev S1x8x512 : Shape := ⟨3, ![1, 8, 512]⟩
abbrev S1x8x4096 : Shape := ⟨3, ![1, 8, 4096]⟩
abbrev S1x16x4096 : Shape := ⟨3, ![1, 16, 4096]⟩
abbrev S1x1x4096 : Shape := ⟨3, ![1, 1, 4096]⟩
abbrev S1x16x512 : Shape := ⟨3, ![1, 16, 512]⟩
abbrev S8x512 : Shape := ⟨2, ![8, 512]⟩
abbrev S8x4096 : Shape := ⟨2, ![8, 4096]⟩
abbrev S512x4096 : Shape := ⟨2, ![512, 4096]⟩
abbrev S16x4096 : Shape := ⟨2, ![16, 4096]⟩
abbrev S16x512 : Shape := ⟨2, ![16, 512]⟩
abbrev S1x1x512 : Shape := ⟨3, ![1, 1, 512]⟩
abbrev S1x512 : Shape := ⟨2, ![1, 512]⟩

abbrev nBuf : Space → Nat
  | .hbm => 22
  | .vmem => 12
  | .smem => 0
  | _ => 0

abbrev bufTy : (tb : Table) → Fin (tcTables nBuf tb) → BufTy
  | .hbm, ⟨0, _⟩ => ⟨S2x16x64x64, .f32⟩
  | .hbm, ⟨1, _⟩ => ⟨S2x5x64x64, .f32⟩
  | .hbm, ⟨2, _⟩ => ⟨S2x16x4096, .f32⟩
  | .hbm, ⟨3, _⟩ => ⟨S2x5x4096, .f32⟩
  | .hbm, ⟨4, _⟩ => ⟨S_, .f32⟩
  | .hbm, ⟨5, _⟩ => ⟨S2x8x4096, .f32⟩
  | .hbm, ⟨6, _⟩ => ⟨S_, .i32⟩
  | .hbm, ⟨7, _⟩ => ⟨S1, .i32⟩
  | .hbm, ⟨8, _⟩ => ⟨S2x8x4096, .f32⟩
  | .hbm, ⟨9, _⟩ => ⟨S2x5x4096, .f32⟩
  | .hbm, ⟨10, _⟩ => ⟨S_, .f32⟩
  | .hbm, ⟨11, _⟩ => ⟨S2x4096, .f32⟩
  | .hbm, ⟨12, _⟩ => ⟨S2x1x4096, .f32⟩
  | .hbm, ⟨13, _⟩ => ⟨S2x1x4096, .f32⟩
  | .hbm, ⟨14, _⟩ => ⟨S2x1x4096, .f32⟩
  | .hbm, ⟨15, _⟩ => ⟨S2x16x4096, .f32⟩
  | .hbm, ⟨16, _⟩ => ⟨S2x16x4096, .f32⟩
  | .hbm, ⟨17, _⟩ => ⟨S_, .f32⟩
  | .hbm, ⟨18, _⟩ => ⟨S2x8x4096, .f32⟩
  | .hbm, ⟨19, _⟩ => ⟨S2x8x4096, .f32⟩
  | .hbm, ⟨20, _⟩ => ⟨S2x16x4096, .f32⟩
  | .hbm, ⟨21, _⟩ => ⟨S2x16x64x64, .f32⟩
  | .local _ .vmem, ⟨0, _⟩ => ⟨S1x8x512, .f32⟩
  | .local _ .vmem, ⟨1, _⟩ => ⟨S1x8x512, .f32⟩
  | .local _ .vmem, ⟨2, _⟩ => ⟨S1x8x4096, .f32⟩
  | .local _ .vmem, ⟨3, _⟩ => ⟨S1x8x4096, .f32⟩
  | .local _ .vmem, ⟨4, _⟩ => ⟨S1x16x4096, .f32⟩
  | .local _ .vmem, ⟨5, _⟩ => ⟨S1x16x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x16x4096, .f32⟩
  | .local _ .vmem, ⟨9, _⟩ => ⟨S1x16x4096, .f32⟩
  | .local _ .vmem, ⟨10, _⟩ => ⟨S1x16x512, .f32⟩
  | .local _ .vmem, ⟨11, _⟩ => ⟨S1x16x512, .f32⟩
  | _, _ => ⟨S2x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_off1 (i : grid0.Coords) : Fin 3 → Nat :=
  let c0_9 : Index := 0#32
  let c0_10 : Index := 0#32
  let arg1 : BitVec 32 := BitVec.ofNat 32 (i 1).val
  let c512_i32 : BitVec 32 := 512#32
  let v0 : BitVec 32 := Scalar.muli arg1 c512_i32
  let v10 : Index := Scalar.indexCast v0
  ![0, 0, v10.toNat]
def k0_off2 (i : grid0.Coords) : Fin 3 → Nat :=
  let c0_11 : Index := 0#32
  let c0_12 : Index := 0#32
  let arg1 : BitVec 32 := BitVec.ofNat 32 (i 1).val
  let c512_i32 : BitVec 32 := 512#32
  let v0 : BitVec 32 := Scalar.muli arg1 c512_i32
  let v15 : Index := Scalar.indexCast v0
  ![0, 0, v15.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x64x64_S2x16x4096 : S2x16x64x64.ShapeCasts S2x16x4096
  shapeCasts_S2x5x64x64_S2x5x4096 : S2x5x64x64.ShapeCasts S2x5x4096
  bcast_S_S2x8x4096 : S_.BroadcastsInDim S2x8x4096 (![] : Fin 0 → Fin S2x8x4096.rank)
  bcast_S_S1 : S_.BroadcastsInDim S1 (![] : Fin 0 → Fin S1.rank)
  reducesTo_S2x5x4096_S2x4096_d1 : S2x5x4096.ReducesTo [1] S2x4096
  h_S_ : 0 < S_.numel
  bcast_S2x4096_S2x1x4096_0_2 : S2x4096.BroadcastsInDim S2x1x4096 (![0, 2] : Fin 2 → Fin S2x1x4096.rank)
  bcast_S2x1x4096_S2x16x4096_0_1_2 : S2x1x4096.BroadcastsInDim S2x16x4096 (![0, 1, 2] : Fin 3 → Fin S2x16x4096.rank)
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  inb_S1x16x4096_S1x16x4096_0_0_0 : ∀ a, (![0, 0, 0] : Fin 3 → Nat) a + S1x16x4096.size a ≤ S1x16x4096.size a
  h_S1x16x4096 : 0 < S1x16x4096.numel
  shapeCasts_S1x16x4096_S16x4096 : S1x16x4096.ShapeCasts S16x4096
  h_S1x1x512 : 0 < S1x1x512.numel
  shapeCasts_S1x1x512_S1x512 : S1x1x512.ShapeCasts S1x512
  broadcasts_S1x512_S16x512 : S1x512.Broadcasts S16x512
  h_S1x16x512 : 0 < S1x16x512.numel
  shapeCasts_S1x16x512_S16x512 : S1x16x512.ShapeCasts S16x512
  inb_S1x16x512_S1x16x512_0_0_0 : ∀ a, (![0, 0, 0] : Fin 3 → Nat) a + S1x16x512.size a ≤ S1x16x512.size a
  shapeCasts_S16x512_S1x16x512 : S16x512.ShapeCasts S1x16x512
  shapeCasts_S2x16x4096_S2x16x64x64 : S2x16x4096.ShapeCasts S2x16x64x64
  scatter_S2x8x4096_S1_S2x5x4096_012_n_1_0_wf : ScatterDims.WF S2x8x4096 S1 S2x5x4096 [0, 1, 2] [] [1] 0
  dot_S8x512_S8x4096_S512x4096_0_0_1_1_n_n_wf : DotDims.WF S8x512 S8x4096 S512x4096 [0] [0] [1] [1] [] []
  dot_S16x4096_S512x4096_S16x512_1_1_0_0_n_n_wf : DotDims.WF S16x4096 S512x4096 S16x512 [1] [1] [0] [0] [] []
  hrank0 : 0 < grid0.rank
  k0_off1_inb : ∀ i : grid0.Coords, ∀ a, (k0_off1 i) a + S1x1x512.size a ≤ S1x1x4096.size a
  k0_off2_inb : ∀ i : grid0.Coords, ∀ a, (k0_off2 i) a + S1x16x512.size a ≤ S1x16x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512.size a ≤ S2x8x4096.size a
  hwx0_0 : ∀ i : grid0.Coords, EltTy.bits .f32 = 32 ∨ (Rect.block (s := S2x8x4096) S1x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x4096.size a ≤ S2x8x4096.size a
  hwx0_1 : ∀ i : grid0.Coords, EltTy.bits .f32 = 32 ∨ (Rect.block (s := S2x8x4096) S1x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x4096.size a ≤ S2x16x4096.size a
  hwx0_2 : ∀ i : grid0.Coords, EltTy.bits .f32 = 32 ∨ (Rect.block (s := S2x16x4096) S1x16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S2x1x4096.size a
  hwx0_3 : ∀ i : grid0.Coords, EltTy.bits .f32 = 32 ∨ (Rect.block (s := S2x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x4096.size a ≤ S2x16x4096.size a
  hwx0_4 : ∀ i : grid0.Coords, EltTy.bits .f32 = 32 ∨ (Rect.block (s := S2x16x4096) S1x16x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512.size a ≤ S2x16x4096.size a
  hwx0_5 : ∀ i : grid0.Coords, EltTy.bits .f32 = 32 ∨ (Rect.block (s := S2x16x4096) S1x16x512.size (cc0_transform_5 i) (hinb0_5 i)).WholeWords (EltTy.packing .f32)

variable [Facts₀]

def scatter_S2x8x4096_S1_S2x5x4096_012_n_1_0 : ScatterDims S2x8x4096 S1 S2x5x4096 where
  updateWindowDims := [0, 1, 2]
  insertedWindowDims := []
  scatterDimsToOperandDims := [1]
  indexVectorDim := 0
  wf := scatter_S2x8x4096_S1_S2x5x4096_012_n_1_0_wf
def dot_S8x512_S8x4096_S512x4096_0_0_1_1_n_n : DotDims S8x512 S8x4096 S512x4096 where
  lhsContracting := [0]
  rhsContracting := [0]
  lhsNonContracting := [1]
  rhsNonContracting := [1]
  lhsBatch := []
  rhsBatch := []
  wf := dot_S8x512_S8x4096_S512x4096_0_0_1_1_n_n_wf
def dot_S16x4096_S512x4096_S16x512_1_1_0_0_n_n : DotDims S16x4096 S512x4096 S16x512 where
  lhsContracting := [1]
  rhsContracting := [1]
  lhsNonContracting := [0]
  rhsNonContracting := [0]
  lhsBatch := []
  rhsBatch := []
  wf := dot_S16x4096_S512x4096_S16x512_1_1_0_0_n_n_wf

abbrev win0_0 : Pipeline.Window sig grid0 :=
  Pipeline.Window.ofSpec (Memref.whole main_v13) S1x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x16x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x16x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x16x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x64x64 : Shape := ⟨4, ![2, 16, 64, 64]⟩
abbrev S2x5x64x64 : Shape := ⟨4, ![2, 5, 64, 64]⟩
abbrev S2x16x4096 : Shape := ⟨3, ![2, 16, 4096]⟩
abbrev S2x4096x16 : Shape := ⟨3, ![2, 4096, 16]⟩
abbrev S2x5x4096 : Shape := ⟨3, ![2, 5, 4096]⟩
abbrev S2x4096x5 : Shape := ⟨3, ![2, 4096, 5]⟩
abbrev S_ : Shape := ⟨0, ![]⟩
abbrev S2x4096 : Shape := ⟨2, ![2, 4096]⟩
abbrev S2x4096x4096 : Shape := ⟨3, ![2, 4096, 4096]⟩
abbrev S2x4096x1 : Shape := ⟨3, ![2, 4096, 1]⟩
abbrev S2x1x4096 : Shape := ⟨3, ![2, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S2x16x64x64, .f32⟩
  | .hbm, ⟨1, _⟩ => ⟨S2x5x64x64, .f32⟩
  | .hbm, ⟨2, _⟩ => ⟨S2x16x4096, .f32⟩
  | .hbm, ⟨3, _⟩ => ⟨S2x4096x16, .f32⟩
  | .hbm, ⟨4, _⟩ => ⟨S2x5x4096, .f32⟩
  | .hbm, ⟨5, _⟩ => ⟨S2x4096x5, .f32⟩
  | .hbm, ⟨6, _⟩ => ⟨S2x4096x5, .f32⟩
  | .hbm, ⟨7, _⟩ => ⟨S_, .f32⟩
  | .hbm, ⟨8, _⟩ => ⟨S2x4096, .f32⟩
  | .hbm, ⟨9, _⟩ => ⟨S2x4096x4096, .f32⟩
  | .hbm, ⟨10, _⟩ => ⟨S2x4096x1, .f32⟩
  | .hbm, ⟨11, _⟩ => ⟨S2x1x4096, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | .hbm, ⟨15, _⟩ => ⟨S_, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S2x4096x16, .f32⟩
  | .hbm, ⟨22, _⟩ => ⟨S2x16x4096, .f32⟩
  | .hbm, ⟨23, _⟩ => ⟨S2x16x64x64, .f32⟩
  | .hbm, ⟨24, _⟩ => ⟨S2x16x64x64, .f32⟩
  | _, _ => ⟨S2x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]

class Facts₀ : Prop where
  shapeCasts_S2x16x64x64_S2x16x4096 : S2x16x64x64.ShapeCasts S2x16x4096
  transposes_S2x16x4096_S2x4096x16_0_2_1 : S2x16x4096.Transposes [0, 2, 1] S2x4096x16
  shapeCasts_S2x5x64x64_S2x5x4096 : S2x5x64x64.ShapeCasts S2x5x4096
  transposes_S2x5x4096_S2x4096x5_0_2_1 : S2x5x4096.Transposes [0, 2, 1] S2x4096x5
  reducesTo_S2x4096x5_S2x4096_d2 : S2x4096x5.ReducesTo [2] S2x4096
  h_S_ : 0 < S_.numel
  bcast_S2x4096_S2x4096x1_0_1 : S2x4096.BroadcastsInDim S2x4096x1 (![0, 1] : Fin 2 → Fin S2x4096x1.rank)
  bcast_S2x4096_S2x1x4096_0_2 : S2x4096.BroadcastsInDim S2x1x4096 (![0, 2] : Fin 2 → Fin S2x1x4096.rank)
  bcast_S2x4096x1_S2x4096x4096_0_1_2 : S2x4096x1.BroadcastsInDim S2x4096x4096 (![0, 1, 2] : Fin 3 → Fin S2x4096x4096.rank)
  bcast_S2x1x4096_S2x4096x4096_0_1_2 : S2x1x4096.BroadcastsInDim S2x4096x4096 (![0, 1, 2] : Fin 3 → Fin S2x4096x4096.rank)
  bcast_S_S2x4096x4096 : S_.BroadcastsInDim S2x4096x4096 (![] : Fin 0 → Fin S2x4096x4096.rank)
  transposes_S2x4096x16_S2x16x4096_0_2_1 : S2x4096x16.Transposes [0, 2, 1] S2x16x4096
  shapeCasts_S2x16x4096_S2x16x64x64 : S2x16x4096.ShapeCasts S2x16x64x64
  dot_S2x4096x5_S2x4096x5_S2x4096x4096_2_2_1_1_0_0_wf : DotDims.WF S2x4096x5 S2x4096x5 S2x4096x4096 [2] [2] [1] [1] [0] [0]
  dot_S2x4096x4096_S2x4096x16_S2x4096x16_2_1_1_2_0_0_wf : DotDims.WF S2x4096x4096 S2x4096x16 S2x4096x16 [2] [1] [1] [2] [0] [0]

variable [Facts₀]

def dot_S2x4096x5_S2x4096x5_S2x4096x4096_2_2_1_1_0_0 : DotDims S2x4096x5 S2x4096x5 S2x4096x4096 where
  lhsContracting := [2]
  rhsContracting := [2]
  lhsNonContracting := [1]
  rhsNonContracting := [1]
  lhsBatch := [0]
  rhsBatch := [0]
  wf := dot_S2x4096x5_S2x4096x5_S2x4096x4096_2_2_1_1_0_0_wf
def dot_S2x4096x4096_S2x4096x16_S2x4096x16_2_1_1_2_0_0 : DotDims S2x4096x4096 S2x4096x16 S2x4096x16 where
  lhsContracting := [2]
  rhsContracting := [1]
  lhsNonContracting := [1]
  rhsNonContracting := [2]
  lhsBatch := [0]
  rhsBatch := [0]
  wf := dot_S2x4096x4096_S2x4096x16_S2x4096x16_2_1_1_2_0_0_wf

class Facts : Prop extends Facts₀ where

variable [Facts]
-- ==== Proof.LibMatrixAtIndex.lean ====
/-
  Vector operations of a graph-convolution layer body read at one index, at the exact (extended-real) instance and
  over arbitrary extents: a row sum and a row maximum of a matrix; the column shapes a keep-dimension reduction
  passes through; a matrix product into a zero accumulator for each of the three ways its two operands are
  contracted (rows against columns, rows against rows, columns against columns); the select that puts one where a
  shifted row number meets a column number; a row-wise log-softmax; the literals 1 and -∞.
-/
import Idealize.ShloMosaic.PureOps
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A reduction along the rows of a matrix -/

section Rows
variable {a b : Nat} {φ : FTy}

/-- The index over row `r` with column `k` inserted is `(r, k)`. -/
theorem lift_row (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows, at row `r`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A maximum along the rows, at row `r`: the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (Finset.fold max (Ideal.ofBits φ acc) · Finset.univ) (funext fun k => congrArg src (lift_row h r k)))

end Rows

/-! ## Column shapes -/

section Columns
variable {α : Type} {a b : Nat}

/-- A vector cast to a one-column matrix reads, at `(i, u)`, the vector at `i`. -/
theorem shapeCast_col_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A matrix product into a zero accumulator, for each way the two operands are contracted -/

section Dot
variable {sl sr so : Shape} (d : DotDims sl sr so)

/-- On a kept axis of the left operand (no batch axes) the operand index is the result index's coordinate at
    that axis's position among the kept axes. -/
theorem lhsIdx_val_kept (hb : d.lhsBatch = []) {al : Fin sl.rank} (hn : al ∈ d.lhsNonContracting) {p : Nat}
    (hp : d.lhsNonContracting.idxOf al = p) (hpo : p < so.rank) (j : so.Idx) (q : d.contr.Idx) :
    (d.lhsIdx j q al).val = (j ⟨p, hpo⟩).val := by
  have hnb : al ∉ d.lhsBatch := by rw [hb]; exact List.not_mem_nil
  unfold DotDims.lhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hb, hp]; simp)

/-- On a kept axis of the right operand (no batch axes) the operand index is the result index's coordinate at
    that axis's position after the left operand's kept axes. -/
theorem rhsIdx_val_kept (hlb : d.lhsBatch = []) (hb : d.rhsBatch = []) {ar : Fin sr.rank} (hn : ar ∈ d.rhsNonContracting)
    {p : Nat} (hp : d.lhsNonContracting.length + d.rhsNonContracting.idxOf ar = p) (hpo : p < so.rank) (j : so.Idx)
    (q : d.contr.Idx) : (d.rhsIdx j q ar).val = (j ⟨p, hpo⟩).val := by
  have hnb : ar ∉ d.rhsBatch := by rw [hb]; exact List.not_mem_nil
  unfold DotDims.rhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hlb, ← hp]; simp)

end Dot

section Products
variable {m k n : Nat}

/-- Rows of the left operand against columns of the right: `(A·B)(i,c) = Σ_f A(i,f)·B(f,c)`. -/
theorem matmul_rowcol_apply (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ .f32) (B : FVec Ideal ⟨2, ![k, n]⟩ .f32) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-- Rows of the left operand against rows of the right: `Σ_e A(i,e)·B(j,e)`. -/
theorem matmul_rowrow_apply (d : DotDims ⟨2, ![m, k]⟩ ⟨2, ![n, k]⟩ ⟨2, ![m, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (A : FVec Ideal ⟨2, ![m, k]⟩ .f32) (B : FVec Ideal ⟨2, ![n, k]⟩ .f32) (i : Fin m) (j : Fin n) :
    matmul d prec A B (constant (F := Ideal) ⟨2, ![m, n]⟩ .f32 0x00000000#32) (ix2 i j)
      = ∑ e : Fin k, A (ix2 i e) * B (ix2 j e) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun e _ => ?_
  have hk := contrEquiv1_symm_val d k hr hs e
  have el : d.lhsIdx (ix2 i j) ((contrEquiv1 d k hr hs).symm e) = ix2 i e := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i j) ((contrEquiv1 d k hr hs).symm e) = ix2 j e := funext fun ax => Fin.ext (by
    match ax with
    | ⟨0, _⟩ =>
      exact rhsIdx_val_kept d hlb hrb (ar := 0) (by rw [hrn]; exact List.mem_singleton.mpr rfl) (p := 1)
        (by rw [hln, hrn]; rfl) Nat.one_lt_two _ _
    | ⟨1, _⟩ => exact (d.rhsIdx_val_of_single hrc _ _).trans hk)
  rw [el, er]

/-- Columns of the left operand against columns of the right: `Σ_v A(v,i)·B(v,j)`. -/
theorem matmul_colcol_apply (d : DotDims ⟨2, ![k, m]⟩ ⟨2, ![k, n]⟩ ⟨2, ![m, n]⟩)
    (hlb : d.lhsBatch = []) (hrb : d.rhsBatch = []) (hln : d.lhsNonContracting = [1]) (hrn : d.rhsNonContracting = [1])
    (hlc : d.lhsContracting = [0]) (hrc : d.rhsContracting = [0])
    (hr : d.contr.rank = 1) (hs : d.contr.size ⟨0, by omega⟩ = k) (prec : Option ContractPrecision)
    (A : FVec Ideal ⟨2, ![k, m]⟩ .f32) (B : FVec Ideal ⟨2, ![k, n]⟩ .f32) (i : Fin m) (j : Fin n) :
    matmul d prec A B (constant (F := Ideal) ⟨2, ![m, n]⟩ .f32 0x00000000#32) (ix2 i j)
      = ∑ v : Fin k, A (ix2 v i) * B (ix2 v j) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun v _ => ?_
  have hk := contrEquiv1_symm_val d k hr hs v
  have el : d.lhsIdx (ix2 i j) ((contrEquiv1 d k hr hs).symm v) = ix2 v i := funext fun ax => Fin.ext (by
    match ax with
    | ⟨0, _⟩ => exact (d.lhsIdx_val_of_single hlc _ _).trans hk
    | ⟨1, _⟩ =>
      exact lhsIdx_val_kept d hlb (al := 1) (by rw [hln]; exact List.mem_singleton.mpr rfl) (p := 0)
        (by rw [hln]; rfl) Nat.zero_lt_two _ _)
  have er : d.rhsIdx (ix2 i j) ((contrEquiv1 d k hr hs).symm v) = ix2 v j := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

end Products

/-! ## The diagonal test and the float literals -/

section Words

/-- Row `g·256 + r` against column `j`, compared as 32-bit words that do not wrap: the select is the `if`. -/
theorem select_shifted_eq {α : Type} (g r j : Nat) (hrow : g * 256 + r < 2 ^ 32) (hj : j < 2 ^ 32) (x y : α) :
    Scalar.select (IntOp.cmpi .eq (IntOp.addi (Scalar.muli (BitVec.ofNat 32 g) 256#32) (BitVec.ofNat 32 r))
        (BitVec.ofNat 32 j)) x y = if g * 256 + r = j then x else y := by
  have h1 : IntOp.addi (Scalar.muli (BitVec.ofNat 32 g) 256#32) (BitVec.ofNat 32 r) = BitVec.ofNat 32 (g * 256 + r) := by
    show BitVec.ofNat 32 g * BitVec.ofNat 32 256 + BitVec.ofNat 32 r = _
    rw [BitVec.ofNat_add, BitVec.ofNat_mul]
  rw [h1]
  have h2 : IntOp.cmpi .eq (BitVec.ofNat 32 (g * 256 + r)) (BitVec.ofNat 32 j) = (1 : BitVec 1) ↔ g * 256 + r = j := by
    show BitVec.ofBool (BitVec.ofNat 32 (g * 256 + r) == BitVec.ofNat 32 j) = (1 : BitVec 1) ↔ _
    constructor
    · intro h
      have hb : (BitVec.ofNat 32 (g * 256 + r) == BitVec.ofNat 32 j) = true := by
        cases hc : (BitVec.ofNat 32 (g * 256 + r) == BitVec.ofNat 32 j)
        · rw [hc] at h; exact absurd h (by decide)
        · rfl
      have he := congrArg BitVec.toNat (eq_of_beq hb)
      rw [BitVec.toNat_ofNat, BitVec.toNat_ofNat, Nat.mod_eq_of_lt hrow, Nat.mod_eq_of_lt hj] at he
      exact he
    · intro h
      rw [h, beq_self_eq_true]
      rfl
  unfold Scalar.select
  by_cases h : g * 256 + r = j
  · rw [if_pos h, if_pos (h2.mpr h)]
  · rw [if_neg h, if_neg (mt h2.mp h)]

/-- The word `0x3F800000` is the number one. -/
theorem ofBits_one_f32 : Ideal.ofBits .f32 0x3F800000#32 = 1 := IdealRules.sign_bit.ideal_onePat .f32

/-- The word `0xFF800000` is `-∞`. -/
theorem ofBits_negInf_f32 : Ideal.ofBits .f32 0xFF800000#32 = ⊥ := by
  simp [Ideal.ofBits, Ideal.ieee]

end Words

/-! ## One on the shifted diagonal, and a row-wise log-softmax -/

section Diagonal
variable {a b : Nat}

/-- The select that puts one where row `g·256 + r` meets column `j` and keeps `X` elsewhere, read at `(r, j)`. -/
theorem select_diag_apply (g : Nat) (h0 : (⟨2, ![a, b]⟩ : Shape).Iotas .tc 32 [0])
    (h1 : (⟨2, ![a, b]⟩ : Shape).Iotas .tc 32 [1]) (X : FVec Ideal ⟨2, ![a, b]⟩ .f32) (r : Fin a) (j : Fin b)
    (hrow : g * 256 + r.val < 2 ^ 32) (hj : j.val < 2 ^ 32) :
    select (cmpi .eq (addi (broadcast ⟨2, ![a, b]⟩ (Scalar.muli (BitVec.ofNat 32 g) 256#32))
          (iota .tc ⟨2, ![a, b]⟩ 32 [0] h0)) (iota .tc ⟨2, ![a, b]⟩ 32 [1] h1))
        (broadcast ⟨2, ![a, b]⟩ (Scalar.ofBits (F := Ideal) .f32 0x3F800000#32)) X (ix2 r j)
      = if g * 256 + r.val = j.val then (1 : EReal) else X (ix2 r j) := by
  show Scalar.select (IntOp.cmpi .eq (IntOp.addi (Scalar.muli (BitVec.ofNat 32 g) 256#32)
        (iota .tc ⟨2, ![a, b]⟩ 32 [0] h0 (ix2 r j))) (iota .tc ⟨2, ![a, b]⟩ 32 [1] h1 (ix2 r j)))
      (Ideal.ofBits .f32 0x3F800000#32) (X (ix2 r j)) = _
  rw [iota_single_apply, iota_single_apply, ofBits_one_f32]
  exact select_shifted_eq g r.val j.val hrow hj 1 (X (ix2 r j))

/-- The row-wise log-softmax as the layer body spells it — the row maximum kept as a column, subtracted, the
    exponentials summed along the row, the logarithm of the sum kept as a column and subtracted — read at `(r, c)`:
    `(Y(r,c) − M) − log Σ_k exp (Y(r,k) − M)` with `M` the maximum of row `r` from `-∞`. -/
theorem logSoftmax_rows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b)
    (x : Fin b → EReal) (hx : ∀ k, Y (ix2 r k) = x k) :
    subf (subf Y (broadcastTo ⟨2, ![a, b]⟩ (shapeCast ⟨2, ![a, 1]⟩
            (multiReduction .maximumf [1] ⟨1, ![a]⟩ Y 0xFF800000#32 hR hφ hmax) hC) hB))
        (broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB) (ix2 r c)
      = (x c - (Finset.univ : Finset (Fin b)).fold max ⊥ x)
          - Ideal.log (∑ k : Fin b, Ideal.exp (x k - (Finset.univ : Finset (Fin b)).fold max ⊥ x)) := by
  have hx' : (fun k => Y (ix2 r k)) = x := funext hx
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = (Finset.univ : Finset (Fin b)).fold max ⊥ x := fun k => by
    rw [broadcastTo_col_apply, shapeCast_col_apply, rowMax_apply, ofBits_negInf_f32, hx']
  show (Y (ix2 r c) - broadcastTo ⟨2, ![a, b]⟩ (shapeCast ⟨2, ![a, 1]⟩
          (multiReduction .maximumf [1] ⟨1, ![a]⟩ Y 0xFF800000#32 hR hφ hmax) hC) hB (ix2 r c))
        - broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB (ix2 r c) = _
  rw [hM c, broadcastTo_col_apply, hx c]
  show _ - Ideal.log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC (ix2 r (0 : Fin 1))) = _
  rw [shapeCast_col_apply, rowSum_apply]
  refine congrArg (fun s => _ - Ideal.log s) (Finset.sum_congr rfl fun k _ => ?_)
  show Ideal.exp (Y (ix2 r k) - broadcastTo ⟨2, ![a, b]⟩ (shapeCast ⟨2, ![a, 1]⟩
          (multiReduction .maximumf [1] ⟨1, ![a]⟩ Y 0xFF800000#32 hR hφ hmax) hC) hB (ix2 r k)) = _
  rw [hM k, hx k]

end Diagonal

end Cert.KernelIdeal.Pay

end
-- ==== Proof.KernelStep.lean ====
/-
  The arithmetic of one grid step, read at one element.  A step holds, for one image of the batch, the doubled
  guide features of 512 positions (eight rows, the last three zero), the guide features of all 4096 positions, the
  scaled sources, the row of scale factors and the sources of the 512 positions.  Its result at channel l and
  position a of the block is
      (Σ_j scaled(l, j) · exp (Σ_d doubled(d, a) · guide(d, j))) · scale(a) − source(l, a):
  the first product contracts the eight feature rows, the second the 4096 positions.
-/
import proofs.«103740_g40793599377963_cont_8to1_b_790_11_alg».proof.Proof.Gen.KernelIdeal.Skeleton
import proofs.«103740_g40793599377963_cont_8to1_b_790_11_alg».proof.Proof.LibMatrixAtIndex
import Idealize.ShloMosaic.Lib.ValueLayout
import Idealize.ShloMosaic.Lib.Pipeline.Value
import Idealize.ShloMosaic.PureOps.Ideal.Laws

noncomputable section

open scoped BigOperators

namespace Cert.KernelIdeal.Step

open Idealize.ShloMosaic Idealize.ShloMosaic.ValueIdx Cert.KernelIdeal Cert.KernelIdeal.Gen

/-- The inner products of the block's positions with all positions, doubled: at `(a, j)` the sum over the eight
    feature rows. -/
theorem inner_apply (v1 : Vec Ideal S1x8x512 .f32) (v3 : Vec Ideal S1x8x4096 .f32) (a : Fin 512) (j : Fin 4096) :
    matmul dot_S8x512_S8x4096_S512x4096_0_0_1_1_n_n none (shapeCast S8x512 v1 shapeCasts_S1x8x512_S8x512 : FVec Ideal S8x512 .f32)
        (shapeCast S8x4096 v3 shapeCasts_S1x8x4096_S8x4096 : FVec Ideal S8x4096 .f32) (constant (F := Ideal) S512x4096 .f32 0x00000000#32) (ix2 a j)
      = ∑ d : Fin 8, v1 (ix3 (0 : Fin 1) d a) * v3 (ix3 (0 : Fin 1) d j) := by
  rw [Cert.KernelIdeal.Pay.matmul_colcol_apply dot_S8x512_S8x4096_S512x4096_0_0_1_1_n_n rfl rfl rfl rfl rfl rfl rfl rfl]
  refine Finset.sum_congr rfl fun d _ => ?_
  rw [shapeCast_1ab_ab_apply, shapeCast_1ab_ab_apply]

/-- The weighted reduction: at `(l, a)` the sum over all positions of the scaled source times the weight. -/
theorem filt_apply (v1 : Vec Ideal S1x8x512 .f32) (v3 : Vec Ideal S1x8x4096 .f32) (v7 : Vec Ideal S1x16x4096 .f32)
    (l : Fin 16) (a : Fin 512) :
    matmul dot_S16x4096_S512x4096_S16x512_1_1_0_0_n_n none (shapeCast S16x4096 v7 shapeCasts_S1x16x4096_S16x4096 : FVec Ideal S16x4096 .f32)
        (exp (matmul dot_S8x512_S8x4096_S512x4096_0_0_1_1_n_n none (shapeCast S8x512 v1 shapeCasts_S1x8x512_S8x512 : FVec Ideal S8x512 .f32)
          (shapeCast S8x4096 v3 shapeCasts_S1x8x4096_S8x4096 : FVec Ideal S8x4096 .f32) (constant (F := Ideal) S512x4096 .f32 0x00000000#32)))
        (constant (F := Ideal) S16x512 .f32 0x00000000#32) (ix2 l a)
      = ∑ j : Fin 4096, v7 (ix3 (0 : Fin 1) l j) * Ideal.exp (∑ d : Fin 8, v1 (ix3 (0 : Fin 1) d a) * v3 (ix3 (0 : Fin 1) d j)) := by
  rw [Cert.KernelIdeal.Pay.matmul_rowrow_apply dot_S16x4096_S512x4096_S16x512_1_1_0_0_n_n rfl rfl rfl rfl rfl rfl rfl rfl]
  refine Finset.sum_congr rfl fun j _ => ?_
  rw [shapeCast_1ab_ab_apply]
  refine congrArg (v7 (ix3 (0 : Fin 1) l j) * ·) ?_
  exact congrArg Ideal.exp (inner_apply v1 v3 a j)

/-- One step's result at block element `(u, l, a)`. -/
theorem pay_apply (v1 : Vec Ideal S1x8x512 .f32) (v3 : Vec Ideal S1x8x4096 .f32) (v7 : Vec Ideal S1x16x4096 .f32)
    (v11 : Vec Ideal S1x1x512 .f32) (v16 : Vec Ideal S1x16x512 .f32) (u : Fin 1) (l : Fin 16) (a : Fin 512) :
    k0_pay1 (F := Ideal) v1 v3 v7 v11 v16 (ix3 u l a)
      = (∑ j : Fin 4096, v7 (ix3 (0 : Fin 1) l j) * Ideal.exp (∑ d : Fin 8, v1 (ix3 (0 : Fin 1) d a) * v3 (ix3 (0 : Fin 1) d j)))
          * v11 (ix3 (0 : Fin 1) (0 : Fin 1) a) - v16 (ix3 (0 : Fin 1) l a) := by
  unfold k0_pay1
  refine (shapeCast_ab_1ab_apply _ shapeCasts_S16x512_S1x16x512 u l a).trans ?_
  refine (subf_apply _ _ _).trans ?_
  refine congrArg₂ (· - ·) ?_ (shapeCast_1ab_ab_apply v16 shapeCasts_S1x16x512_S16x512 l a)
  refine (mulf_apply _ _ _).trans ?_
  refine congrArg₂ (· * ·) (filt_apply v1 v3 v7 l a) ?_
  refine (broadcastTo_1b_ab_apply _ broadcasts_S1x512_S16x512 l a).trans ?_
  exact shapeCast_1ab_ab_apply v11 shapeCasts_S1x1x512_S1x512 (0 : Fin 1) a

end Cert.KernelIdeal.Step

end
-- ==== Proof.KernelPoint.lean ====
/-
  The whole output array as one function of the five arrays the call is handed, and one grid step as a block of it.
  At image b, channel l and position n the array holds
      (Σ_j scaled(b, l, j) · exp (Σ_d doubled(b, d, n) · padded(b, d, j))) · scale(b, 0, n) − source(b, l, n).
  The step at image b and column block i reads rows of image b only, and the 512 positions i·512 … i·512 + 511 of
  the doubled features, the scale row and the sources; its result at (l, a) is the array's value at (b, l, i·512 + a).
-/
import proofs.«103740_g40793599377963_cont_8to1_b_790_11_alg».proof.Proof.KernelStep

noncomputable section

open scoped BigOperators

namespace Cert.KernelIdeal.Step

open Idealize.ShloMosaic Idealize.ShloMosaic.ValueIdx Cert.KernelIdeal Cert.KernelIdeal.Gen

/-- The output array of the call as a function of its five operand arrays. -/
def filtered (A13 A4 : FVec Ideal S2x8x4096 .f32) (A11 : FVec Ideal S2x16x4096 .f32) (A9 : FVec Ideal S2x1x4096 .f32)
    (A0 : FVec Ideal S2x16x4096 .f32) : FVec Ideal S2x16x4096 .f32 := fun i =>
  (∑ j : Fin 4096, A11 (ix3 (n0 := 2) (n1 := 16) (n2 := 4096) (i 0) (i 1) j)
      * Ideal.exp (∑ d : Fin 8, A13 (ix3 (n0 := 2) (n1 := 8) (n2 := 4096) (i 0) d (i 2)) * A4 (ix3 (n0 := 2) (n1 := 8) (n2 := 4096) (i 0) d j)))
    * A9 (ix3 (n0 := 2) (n1 := 1) (n2 := 4096) (i 0) (0 : Fin 1) (i 2)) - A0 (ix3 (n0 := 2) (n1 := 16) (n2 := 4096) (i 0) (i 1) (i 2))

theorem filtered_apply (A13 A4 : FVec Ideal S2x8x4096 .f32) (A11 : FVec Ideal S2x16x4096 .f32) (A9 : FVec Ideal S2x1x4096 .f32)
    (A0 : FVec Ideal S2x16x4096 .f32) (b : Fin 2) (l : Fin 16) (n : Fin 4096) :
    filtered A13 A4 A11 A9 A0 (ix3 b l n)
      = (∑ j : Fin 4096, A11 (ix3 b l j) * Ideal.exp (∑ d : Fin 8, A13 (ix3 b d n) * A4 (ix3 b d j))) * A9 (ix3 b (0 : Fin 1) n)
          - A0 (ix3 b l n) := rfl

/-- One step's result at block index `y` is the array's value at the index `E` the block index sits at, given what each
    loaded value is in terms of the operand arrays. -/
theorem point_eq (X0 : Vec Ideal S1x8x512 .f32) (X1 : Vec Ideal S1x8x4096 .f32) (X2 : Vec Ideal S1x16x4096 .f32)
    (X3 : Vec Ideal S1x1x512 .f32) (X4 : Vec Ideal S1x16x512 .f32)
    (A13 A4 : FVec Ideal S2x8x4096 .f32) (A11 : FVec Ideal S2x16x4096 .f32) (A9 : FVec Ideal S2x1x4096 .f32)
    (A0 : FVec Ideal S2x16x4096 .f32) (b : Fin 2) (n : Fin 512 → Fin 4096)
    (h0 : ∀ (d : Fin 8) (a : Fin 512), X0 (ix3 (0 : Fin 1) d a) = A13 (ix3 b d (n a)))
    (h1 : ∀ (d : Fin 8) (j : Fin 4096), X1 (ix3 (0 : Fin 1) d j) = A4 (ix3 b d j))
    (h2 : ∀ (l : Fin 16) (j : Fin 4096), X2 (ix3 (0 : Fin 1) l j) = A11 (ix3 b l j))
    (h3 : ∀ a : Fin 512, X3 (ix3 (0 : Fin 1) (0 : Fin 1) a) = A9 (ix3 b (0 : Fin 1) (n a)))
    (h4 : ∀ (l : Fin 16) (a : Fin 512), X4 (ix3 (0 : Fin 1) l a) = A0 (ix3 b l (n a)))
    (y : S1x16x512.Idx) (E : S2x16x4096.Idx)
    (hE0 : (E 0).val = b.val) (hE1 : (E 1).val = (y 1).val) (hE2 : (E 2).val = (n (y 2)).val) :
    k0_pay1 (F := Ideal) X0 X1 X2 X3 X4 y = filtered A13 A4 A11 A9 A0 E := by
  obtain ⟨u, l, a, rfl⟩ : ∃ (u : Fin 1) (l : Fin 16) (a : Fin 512), y = ix3 u l a := ⟨y 0, y 1, y 2, eq_ix3 y⟩
  have hE : E = ix3 b l (n a) := by
    funext ax
    match ax with
    | ⟨0, _⟩ => exact Fin.ext hE0
    | ⟨1, _⟩ => exact Fin.ext hE1
    | ⟨2, _⟩ => exact Fin.ext hE2
  rw [hE, filtered_apply, pay_apply, h3, h4]
  refine congrArg₂ (· - ·) (congrArg₂ (· * ·) (Finset.sum_congr rfl fun j _ => ?_) rfl) rfl
  rw [h2]
  refine congrArg (A11 (ix3 b l j) * ·) (congrArg Ideal.exp (Finset.sum_congr rfl fun d _ => ?_))
  rw [h0, h1]

end Cert.KernelIdeal.Step

end
-- ==== Proof.KernelPiece.lean ====
/-
  What one grid step leaves in its output block: the body has a single store, covering the whole block, whose value
  is the step's arithmetic applied to what its loads read — the three whole input blocks, and the 512-position
  windows of the scale row and of the sources that start where the step's column block starts.
-/
import proofs.«103740_g40793599377963_cont_8to1_b_790_11_alg».proof.Proof.Gen.KernelIdeal.Frame
import Idealize.ShloMosaic.Lib.Pipeline.Value
import Idealize.ShloMosaic.Lib.Tactic

noncomputable section

namespace Cert.KernelIdeal.Step

open Idealize.ShloMosaic Idealize.ShloMosaic.TcCoe Idealize.ShloMosaic.Tactic Idealize.SL.Sem Cert.KernelIdeal Cert.KernelIdeal.Gen

variable {F : FTy → Type} [FloatOps F]

theorem zero3 : (![0, 0, 0] : Fin 3 → Nat) = fun _ => 0 := funext fun a => by fin_cases a <;> rfl

/-- The step's output block is its arithmetic of the loaded values. -/
theorem out_A (c : Dev nD) (i : grid0.Coords) (a2 : Memref sig .tc .vmem S1x8x512 .f32) (h2 : a2.IsWhole)
    (a3 : Memref sig .tc .vmem S1x8x4096 .f32) (h3 : a3.IsWhole) (a4 : Memref sig .tc .vmem S1x16x4096 .f32) (h4 : a4.IsWhole)
    (a5 : Memref sig .tc .vmem S1x1x4096 .f32) (h5 : a5.IsWhole) (a6 : Memref sig .tc .vmem S1x16x4096 .f32) (h6 : a6.IsWhole)
    (a7 : Memref sig .tc .vmem S1x16x512 .f32) (h7 : a7.IsWhole)
    (x0 : Vec F S1x8x512 .f32) (x1 : Vec F S1x8x4096 .f32) (x2 : Vec F S1x16x4096 .f32) (x3 : Vec F S1x1x4096 .f32) (x4 : Vec F S1x16x4096 .f32) :
    out0_A_5 c i a2 h2 a3 h3 a4 h4 a5 h5 a6 h6 a7 h7 x0 x1 x2 x3 x4
      = k0_pay1 x0 x1 x2 (View.ld x3 (Rect.unit (s := S1x1x4096) (k0_off1 i) S1x1x512.size (k0_off1_inb i)))
          (View.ld x4 (Rect.unit (s := S1x16x4096) (k0_off2 i) S1x16x512.size (k0_off2_inb i))) := by
  unfold out0_A_5
  rw [View.read_writes_eq_canon _ _ _ (cover0_A_5 c i a2 h2 a3 h3 a4 h4 a5 h5 a6 h6 a7 h7 x0 x1 x2 x3 x4)]
  unfold kernelRun0_A
  dsimp only
  sl_unfold_words
  rw [View.canon_unit_zero zero3]
  simp only [View.readAt_eq_ld, h2.read_unread, h3.read_unread, h4.read_unread, h5.read_unread, h6.read_unread,
    View.ld_unit_zero (S := S1x8x512) zero3, View.ld_unit_zero (S := S1x8x4096) zero3,
    View.ld_unit_zero (S := S1x16x4096) zero3]

end Cert.KernelIdeal.Step

end
-- ==== Proof.KernelArray.lean ====
/-
  From blocks to the array.  The grid has a point for each image b and column block i; the point writes back the
  block of rows 0 … 15 and positions i·512 … i·512 + 511 of image b, and what it writes is that block of ONE function
  of the five operand arrays (the operands' blocks are the rows of image b, whole or at the same column block, and
  the two windows the body loads at a computed offset start at position i·512).  The sixteen blocks tile the array,
  so the array ends as that function; the reshape after the call views it [2, 16, 64, 64].
-/
import proofs.«103740_g40793599377963_cont_8to1_b_790_11_alg».proof.Proof.KernelPoint
import proofs.«103740_g40793599377963_cont_8to1_b_790_11_alg».proof.Proof.KernelPiece
import Idealize.ShloMosaic.Lib.Pipeline.Value
import Idealize.ShloMosaic.Lib.StableHlo.Run

noncomputable section

namespace Cert.KernelIdeal.Whole

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The output array of the call, of the operand arrays as the call finds them. -/
abbrev outArr (c : Dev nD) : FVec Ideal S2x16x4096 .f32 :=
  Step.filtered (V m c main_v13) (V m c main_v4) (V m c main_v11) (V m c main_v9) (V m c main_v0)

/-- The block indices of the six windows and the two computed load offsets, at every grid point. -/
theorem idx_facts : ∀ t : Fin cfg0.N,
    win0_0.index t (0 : Fin 3) = win0_5.index t (0 : Fin 3) ∧ win0_0.index t (1 : Fin 3) = 0 ∧ win0_0.index t (2 : Fin 3) = win0_5.index t (2 : Fin 3)
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) < 2 ∧ win0_5.index t (1 : Fin 3) = 0 ∧ win0_5.index t (2 : Fin 3) < 8
    ∧ k0_off1 (grid0.coords t) (0 : Fin 3) = 0 ∧ k0_off1 (grid0.coords t) (1 : Fin 3) = 0
    ∧ k0_off1 (grid0.coords t) (2 : Fin 3) = win0_5.index t (2 : Fin 3) * 512
    ∧ k0_off2 (grid0.coords t) (0 : Fin 3) = 0 ∧ k0_off2 (grid0.coords t) (1 : Fin 3) = 0
    ∧ k0_off2 (grid0.coords t) (2 : Fin 3) = win0_5.index t (2 : Fin 3) * 512 :=
  (by decide +kernel : ∀ t : Fin grid0.N, _)

/-- Every (image, column block) pair is some point's. -/
theorem idx_onto : ∀ (q0 : Fin 2) (q2 : Fin 8), ∃ t : Fin cfg0.N, win0_5.index t = ![q0.val, 0, q2.val] :=
  (by decide +kernel : ∀ (q0 : Fin 2) (q2 : Fin 8), ∃ t : Fin grid0.N, win0_5.index t = ![q0.val, 0, q2.val])

/-- Position `a` of column block `q`. -/
def posOf (q : Nat) (hq : q < 8) (a : Fin 512) : Fin 4096 := ⟨q * 512 + a.val, by have := a.isLt; omega⟩

/-- What point `t` writes back is its block of the array function. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold outsAt0
  rw [Step.out_A]
  obtain ⟨a00, a01, a02, a10, a11, a12, a20, a21, a22, a30, a31, a32, a40, a41, a42, o0, o1, o2, p0, p1, p2, q0, q1, q2⟩ := idx_facts t
  funext y
  have hy0 : (y 0).val < 1 := (y 0).isLt
  show k0_pay1 (F := Ideal) (iblk m c 0 t) (iblk m c 1 t) (iblk m c 2 t)
      (View.ld (iblk m c 3 t) (Rect.unit (s := S1x1x4096) (k0_off1 (grid0.coords t)) S1x1x512.size (k0_off1_inb (grid0.coords t))))
      (View.ld (iblk m c 4 t) (Rect.unit (s := S1x16x4096) (k0_off2 (grid0.coords t)) S1x16x512.size (k0_off2_inb (grid0.coords t)))) y
    = outArr m c (((cfg0.win 5).blk t).view.emb y)
  refine Step.point_eq (iblk m c 0 t) (iblk m c 1 t) (iblk m c 2 t)
    (View.ld (iblk m c 3 t) (Rect.unit (s := S1x1x4096) (k0_off1 (grid0.coords t)) S1x1x512.size (k0_off1_inb (grid0.coords t))))
    (View.ld (iblk m c 4 t) (Rect.unit (s := S1x16x4096) (k0_off2 (grid0.coords t)) S1x16x512.size (k0_off2_inb (grid0.coords t))))
    (V m c main_v13) (V m c main_v4) (V m c main_v11) (V m c main_v9) (V m c main_v0)
    ⟨win0_5.index t (0 : Fin 3), o0⟩ (posOf (win0_5.index t (2 : Fin 3)) o2)
    ?rd0 ?rd1 ?rd2 ?rd3 ?rd4 y (((cfg0.win 5).blk t).view.emb y) ?at0 ?at1 ?at2
  case rd0 =>
    intro d a
    show V m c main_v13 (((cfg0.win 0).blk t).view.emb (ix3 (0 : Fin 1) d a)) = _
    refine congrArg (V m c main_v13) (funext fun ax => Fin.ext ?_)
    match ax with
    | ⟨0, _⟩ => show win0_0.index t (0 : Fin 3) * 1 + 1 * 0 = win0_5.index t (0 : Fin 3); omega
    | ⟨1, _⟩ => show win0_0.index t (1 : Fin 3) * 8 + 1 * d.val = d.val; omega
    | ⟨2, _⟩ => show win0_0.index t (2 : Fin 3) * 512 + 1 * a.val = win0_5.index t (2 : Fin 3) * 512 + a.val; omega
  case rd1 =>
    intro d j
    show V m c main_v4 (((cfg0.win 1).blk t).view.emb (ix3 (0 : Fin 1) d j)) = _
    refine congrArg (V m c main_v4) (funext fun ax => Fin.ext ?_)
    match ax with
    | ⟨0, _⟩ => show win0_1.index t (0 : Fin 3) * 1 + 1 * 0 = win0_5.index t (0 : Fin 3); omega
    | ⟨1, _⟩ => show win0_1.index t (1 : Fin 3) * 8 + 1 * d.val = d.val; omega
    | ⟨2, _⟩ => show win0_1.index t (2 : Fin 3) * 4096 + 1 * j.val = j.val; omega
  case rd2 =>
    intro l j
    show V m c main_v11 (((cfg0.win 2).blk t).view.emb (ix3 (0 : Fin 1) l j)) = _
    refine congrArg (V m c main_v11) (funext fun ax => Fin.ext ?_)
    match ax with
    | ⟨0, _⟩ => show win0_2.index t (0 : Fin 3) * 1 + 1 * 0 = win0_5.index t (0 : Fin 3); omega
    | ⟨1, _⟩ => show win0_2.index t (1 : Fin 3) * 16 + 1 * l.val = l.val; omega
    | ⟨2, _⟩ => show win0_2.index t (2 : Fin 3) * 4096 + 1 * j.val = j.val; omega
  case rd3 =>
    intro a
    show V m c main_v9 (((cfg0.win 3).blk t).view.emb
      ((Rect.unit (s := S1x1x4096) (k0_off1 (grid0.coords t)) S1x1x512.size (k0_off1_inb (grid0.coords t))).idx (ix3 (0 : Fin 1) (0 : Fin 1) a))) = _
    refine congrArg (V m c main_v9) (funext fun ax => Fin.ext ?_)
    match ax with
    | ⟨0, _⟩ => show win0_3.index t (0 : Fin 3) * 1 + 1 * (k0_off1 (grid0.coords t) (0 : Fin 3) + 1 * 0) = win0_5.index t (0 : Fin 3); omega
    | ⟨1, _⟩ => show win0_3.index t (1 : Fin 3) * 1 + 1 * (k0_off1 (grid0.coords t) (1 : Fin 3) + 1 * 0) = 0; omega
    | ⟨2, _⟩ => show win0_3.index t (2 : Fin 3) * 4096 + 1 * (k0_off1 (grid0.coords t) (2 : Fin 3) + 1 * a.val) = win0_5.index t (2 : Fin 3) * 512 + a.val; omega
  case rd4 =>
    intro l a
    show V m c main_v0 (((cfg0.win 4).blk t).view.emb
      ((Rect.unit (s := S1x16x4096) (k0_off2 (grid0.coords t)) S1x16x512.size (k0_off2_inb (grid0.coords t))).idx (ix3 (0 : Fin 1) l a))) = _
    refine congrArg (V m c main_v0) (funext fun ax => Fin.ext ?_)
    match ax with
    | ⟨0, _⟩ => show win0_4.index t (0 : Fin 3) * 1 + 1 * (k0_off2 (grid0.coords t) (0 : Fin 3) + 1 * 0) = win0_5.index t (0 : Fin 3); omega
    | ⟨1, _⟩ => show win0_4.index t (1 : Fin 3) * 16 + 1 * (k0_off2 (grid0.coords t) (1 : Fin 3) + 1 * l.val) = l.val; omega
    | ⟨2, _⟩ => show win0_4.index t (2 : Fin 3) * 4096 + 1 * (k0_off2 (grid0.coords t) (2 : Fin 3) + 1 * a.val) = win0_5.index t (2 : Fin 3) * 512 + a.val; omega
  case at0 => show win0_5.index t (0 : Fin 3) * 1 + 1 * (y 0).val = win0_5.index t (0 : Fin 3); omega
  case at1 => show win0_5.index t (1 : Fin 3) * 16 + 1 * (y 1).val = (y 1).val; omega
  case at2 => show win0_5.index t (2 : Fin 3) * 512 + 1 * (y 2).val = win0_5.index t (2 : Fin 3) * 512 + (y 2).val; omega

/-- An index of the array is in point `t`'s block iff each coordinate is in the block's range on its axis. -/
theorem mem_blk (t : Fin cfg0.N) (i : S2x16x4096.Idx) :
    i ∈ ((cfg0.win 5).blk t).view.set ↔ ∀ a : Fin 3, win0_5.index t a * S1x16x512.size a ≤ (i a).val ∧ (i a).val < win0_5.index t a * S1x16x512.size a + S1x16x512.size a := by
  show i ∈ ((View.whole main_v14).slice (win0_5.rect t)).set ↔ _
  rw [View.set_slice_whole, Rect.mem_set_unit]
  exact Iff.rfl

/-- The blocks tile the array: every index is in some point's block. -/
theorem cover (i : S2x16x4096.Idx) : ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 4096 := (i 2).isLt
  obtain ⟨t, ht⟩ := idx_onto ⟨(i 0).val, hi0⟩ ⟨(i 2).val / 512, by omega⟩
  have q0 : win0_5.index t (0 : Fin 3) = (i 0).val := congrFun ht 0
  have q1 : win0_5.index t (1 : Fin 3) = 0 := congrFun ht 1
  have q2 : win0_5.index t (2 : Fin 3) = (i 2).val / 512 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 16 ≤ (i 1).val ∧ (i 1).val < win0_5.index t (1 : Fin 3) * 16 + 16; omega
  | ⟨2, _⟩ => show win0_5.index t (2 : Fin 3) * 512 ≤ (i 2).val ∧ (i 2).val < win0_5.index t (2 : Fin 3) * 512 + 512; omega

/-- The output array after the call. -/
theorem final (c : Dev nD) : (dats m 0 c).arrAt 5 cfg0.N = outArr m c :=
  (dats m 0 c).arrAt_eq_of_cover 5 (outArr m c) (fun t _ => flushed_eq m c t) cover

/-- @main's result: the output array viewed [2, 16, 64, 64]. -/
theorem result_eq (c : Dev nD) :
    Pipeline.afterTail₀ cfgs (dats m) 0 (V0 m) [hostOps1] c main_v15
      = shapeCast S2x16x64x64 (outArr m c) shapeCasts_S2x16x4096_S2x16x64x64 := by
  unfold Pipeline.afterTail₀
  show StableHlo.after hostOps1 _ (Proc.devRef .tc main_v15) = _
  after_results
  exact congrArg (fun z : FVec Ideal S2x16x4096 .f32 => shapeCast S2x16x64x64 z shapeCasts_S2x16x4096_S2x16x64x64)
    ((Pipeline.withArrays_arr spec0 launch0.win.arr_inj c _ _ 5).trans (final m c))

/-- The run, read: the result at the output array viewed [2, 16, 64, 64], the arguments unchanged. -/
theorem run : θ_run defs (onTc (τ := τ) (main (F := Ideal))) ⟨m, fun _ => 0, ρ⟩ fun r => ∀ c : Dev nD,
      r.2.mem ((c : Thread nD τ).loc main_v15) = shapeCast S2x16x64x64 (outArr m c) shapeCasts_S2x16x4096_S2x16x64x64
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.LibScatterPrefix.lean ====
/-
  A scatter whose one update window is the whole update array, placed at start index zero along the middle axis of
  a rank-3 operand: the update [a, q, k] overwrites the first q slices of the operand [a, p, k] (q ≤ p) and the rest
  of the operand is kept — zero padding of the middle axis when the operand is a zero array.  The host's scatter is a
  left fold over the update's elements, each replacing the operand's element at the place it lands; with a replacing
  body, an element that exactly one update lands on ends at that update, and one no update lands on is unchanged.
  Arbitrary extents; no program imported.
-/
import Idealize.ShloMosaic.PureOps
import Idealize.ShloMosaic.Lib.ValueIdx

noncomputable section

namespace Cert.ScatterPrefix

open Idealize.ShloMosaic Idealize.ShloMosaic.ValueIdx

/-! ## A fold of point updates -/

section Fold
variable {ι I α : Type} [DecidableEq I]

/-- One step: the update `n` overwrites the place `g n` it lands on, if any. -/
def stepSet (g : ι → Option I) (v : ι → α) (r : I → α) (n : ι) : I → α :=
  match g n with
  | some i => fun i' => if i' = i then v n else r i'
  | none => r

theorem stepSet_apply (g : ι → Option I) (v : ι → α) (r : I → α) (n : ι) (i' : I) :
    stepSet g v r n i' = if g n = some i' then v n else r i' := by
  unfold stepSet
  cases h : g n with
  | none =>
    show r i' = if none = some i' then v n else r i'
    rw [if_neg (fun h' : (none : Option I) = some i' => by cases h')]
  | some i =>
    show (if i' = i then v n else r i') = if some i = some i' then v n else r i'
    by_cases e : i' = i
    · rw [if_pos e, if_pos (by rw [e])]
    · rw [if_neg e, if_neg (fun h' => e (Option.some.inj h').symm)]

/-- A place no update of the list lands on keeps its value. -/
theorem foldl_stepSet_miss (g : ι → Option I) (v : ι → α) (L : List ι) (r : I → α) (i' : I)
    (h : ∀ n ∈ L, g n ≠ some i') : (L.foldl (stepSet g v) r) i' = r i' := by
  induction L using List.reverseRecOn with
  | nil => rfl
  | append_singleton L a ih =>
    rw [List.foldl_append, List.foldl_cons, List.foldl_nil, stepSet_apply,
      if_neg (h a (List.mem_append.mpr (Or.inr (List.mem_singleton.mpr rfl))))]
    exact ih fun n hn => h n (List.mem_append.mpr (Or.inl hn))

/-- A place exactly one update of the list lands on ends at that update's value. -/
theorem foldl_stepSet_hit (g : ι → Option I) (v : ι → α) (L : List ι) (r : I → α) (i' : I) (n0 : ι)
    (hn0 : n0 ∈ L) (h0 : g n0 = some i') (huniq : ∀ n ∈ L, g n = some i' → n = n0) :
    (L.foldl (stepSet g v) r) i' = v n0 := by
  induction L using List.reverseRecOn with
  | nil => exact absurd hn0 List.not_mem_nil
  | append_singleton L a ih =>
    rw [List.foldl_append, List.foldl_cons, List.foldl_nil, stepSet_apply]
    by_cases ha : g a = some i'
    · rw [if_pos ha, huniq a (List.mem_append.mpr (Or.inr (List.mem_singleton.mpr rfl))) ha]
    · rw [if_neg ha]
      have hm : n0 ∈ L := by
        rcases List.mem_append.mp hn0 with hL | hs
        · exact hL
        · rw [List.mem_singleton] at hs
          subst hs
          exact absurd h0 ha
      exact ih hm fun n hn => huniq n (List.mem_append.mpr (Or.inl hn))

end Fold

/-! ## The host's scatter with a replacing body -/

section Scatter
variable {α : Type} {s si u : Shape} {w : Nat}

theorem scatter_eq_foldl (d : ScatterDims s si u) (x : s.Idx → α) (idx : IVec si w) (upd : u.Idx → α) :
    Host.scatter d (fun _ y => y) x idx upd
      = (List.finRange u.numel).foldl
          (stepSet (fun n => d.resultIdx? (u.rowMajor.symm n) idx) (fun n => upd (u.rowMajor.symm n))) x := by
  unfold Host.scatter
  refine congrArg (fun f => List.foldl f x (List.finRange u.numel)) ?_
  funext r n
  simp only [stepSet]
  cases d.resultIdx? (u.rowMajor.symm n) idx <;> rfl

/-- An operand element exactly one update element lands on ends at that update element. -/
theorem scatter_hit (d : ScatterDims s si u) (x : s.Idx → α) (idx : IVec si w) (upd : u.Idx → α) (i' : s.Idx)
    (j0 : u.Idx) (h0 : d.resultIdx? j0 idx = some i') (huniq : ∀ j, d.resultIdx? j idx = some i' → j = j0) :
    Host.scatter d (fun _ y => y) x idx upd i' = upd j0 := by
  rw [scatter_eq_foldl]
  have key := foldl_stepSet_hit (fun n => d.resultIdx? (u.rowMajor.symm n) idx) (fun n => upd (u.rowMajor.symm n))
    (List.finRange u.numel) x i' (u.rowMajor j0) (List.mem_finRange _)
    (by show d.resultIdx? (u.rowMajor.symm (u.rowMajor j0)) idx = some i'; rw [Equiv.symm_apply_apply]; exact h0)
    (fun n _ hn => by
      have e : u.rowMajor.symm n = j0 := huniq _ hn
      rw [← e, Equiv.apply_symm_apply])
  rw [key]
  show upd (u.rowMajor.symm (u.rowMajor j0)) = upd j0
  rw [Equiv.symm_apply_apply]

/-- An operand element no update element lands on is kept. -/
theorem scatter_miss (d : ScatterDims s si u) (x : s.Idx → α) (idx : IVec si w) (upd : u.Idx → α) (i' : s.Idx)
    (hmiss : ∀ j, d.resultIdx? j idx ≠ some i') : Host.scatter d (fun _ y => y) x idx upd i' = x i' := by
  rw [scatter_eq_foldl]
  exact foldl_stepSet_miss _ _ _ _ _ fun n _ => hmiss _

end Scatter

/-! ## The whole update placed at the start of the middle axis -/

section Prefix
variable {α : Type} {a p q k w : Nat}

/-- With every axis of the update a window axis, no inserted axis and the start index word zero, the update's
    element `(b, e, j)` lands on the operand's element `(b, e, j)`. -/
theorem resultIdx_prefix (d : ScatterDims ⟨3, ![a, p, k]⟩ ⟨1, ![1]⟩ ⟨3, ![a, q, k]⟩)
    (huw : d.updateWindowDims = [0, 1, 2]) (hiw : d.insertedWindowDims = [])
    (hqp : q ≤ p) (idx : IVec ⟨1, ![1]⟩ w) (hidx : ∀ t, idx t = 0) (b : Fin a) (e : Fin q) (j : Fin k) :
    d.resultIdx? (ix3 b e j) idx = some (ix3 b (Fin.castLE hqp e) j) := by
  obtain ⟨uw, iw, sd, iv, wf⟩ := d
  simp only at huw hiw
  subst huw hiw
  have hs : ∀ ax, (ScatterDims.mk (s := ⟨3, ![a, p, k]⟩) (si := ⟨1, ![1]⟩) (u := ⟨3, ![a, q, k]⟩) [0, 1, 2] [] sd iv wf).start
      (ix3 b e j) idx ax = 0 := by
    intro ax
    unfold ScatterDims.start
    split
    · rw [hidx]; simp
    · rfl
  have m0 : ∀ h0 : 0 < 3, (⟨0, h0⟩ : Fin 3) ∈ (ScatterDims.mk (s := ⟨3, ![a, p, k]⟩) (si := ⟨1, ![1]⟩) (u := ⟨3, ![a, q, k]⟩) [0, 1, 2] [] sd iv wf).sKept :=
    fun _ => List.mem_filter.mpr ⟨List.mem_finRange _, by simp⟩
  have m1 : ∀ h1 : 1 < 3, (⟨1, h1⟩ : Fin 3) ∈ (ScatterDims.mk (s := ⟨3, ![a, p, k]⟩) (si := ⟨1, ![1]⟩) (u := ⟨3, ![a, q, k]⟩) [0, 1, 2] [] sd iv wf).sKept :=
    fun _ => List.mem_filter.mpr ⟨List.mem_finRange _, by simp⟩
  have m2 : ∀ h2 : 2 < 3, (⟨2, h2⟩ : Fin 3) ∈ (ScatterDims.mk (s := ⟨3, ![a, p, k]⟩) (si := ⟨1, ![1]⟩) (u := ⟨3, ![a, q, k]⟩) [0, 1, 2] [] sd iv wf).sKept :=
    fun _ => List.mem_filter.mpr ⟨List.mem_finRange _, by simp⟩
  have hw0 : ∀ h0 : 0 < 3, (ScatterDims.mk (s := ⟨3, ![a, p, k]⟩) (si := ⟨1, ![1]⟩) (u := ⟨3, ![a, q, k]⟩) [0, 1, 2] [] sd iv wf).window (ix3 b e j) (⟨0, h0⟩ : Fin 3) = b.val := fun h0 => by
    unfold ScatterDims.window
    rw [dif_pos (m0 h0)]
    rfl
  have hw1 : ∀ h1 : 1 < 3, (ScatterDims.mk (s := ⟨3, ![a, p, k]⟩) (si := ⟨1, ![1]⟩) (u := ⟨3, ![a, q, k]⟩) [0, 1, 2] [] sd iv wf).window (ix3 b e j) (⟨1, h1⟩ : Fin 3) = e.val := fun h1 => by
    unfold ScatterDims.window
    rw [dif_pos (m1 h1)]
    rfl
  have hw2 : ∀ h2 : 2 < 3, (ScatterDims.mk (s := ⟨3, ![a, p, k]⟩) (si := ⟨1, ![1]⟩) (u := ⟨3, ![a, q, k]⟩) [0, 1, 2] [] sd iv wf).window (ix3 b e j) (⟨2, h2⟩ : Fin 3) = j.val := fun h2 => by
    unfold ScatterDims.window
    rw [dif_pos (m2 h2)]
    rfl
  unfold ScatterDims.resultIdx?
  have hb := b.isLt
  have he := e.isLt
  have hj := j.isLt
  rw [dif_pos (fun ax => by
    rw [hs ax]
    match ax with
    | ⟨0, h0⟩ => rw [hw0 h0]; exact ⟨by omega, by show (0 : Int) + (b.val : Int) < (a : Int); omega⟩
    | ⟨1, h1⟩ => rw [hw1 h1]; exact ⟨by omega, by show (0 : Int) + (e.val : Int) < (p : Int); omega⟩
    | ⟨2, h2⟩ => rw [hw2 h2]; exact ⟨by omega, by show (0 : Int) + (j.val : Int) < (k : Int); omega⟩)]
  refine congrArg some (funext fun ax => Fin.ext ?_)
  show ((ScatterDims.mk (s := ⟨3, ![a, p, k]⟩) (si := ⟨1, ![1]⟩) (u := ⟨3, ![a, q, k]⟩) [0, 1, 2] [] sd iv wf).start (ix3 b e j) idx ax
      + ((ScatterDims.mk (s := ⟨3, ![a, p, k]⟩) (si := ⟨1, ![1]⟩) (u := ⟨3, ![a, q, k]⟩) [0, 1, 2] [] sd iv wf).window (ix3 b e j) ax : Int)).toNat = _
  rw [hs ax]
  match ax with
  | ⟨0, h0⟩ => rw [hw0 h0]; show ((0 : Int) + (b.val : Int)).toNat = b.val; omega
  | ⟨1, h1⟩ => rw [hw1 h1]; show ((0 : Int) + (e.val : Int)).toNat = e.val; omega
  | ⟨2, h2⟩ => rw [hw2 h2]; show ((0 : Int) + (j.val : Int)).toNat = j.val; omega

/-- Read at `(b, e, j)`: the update there when `e` is one of its `q` slices, the operand otherwise. -/
theorem scatter_prefix_apply (d : ScatterDims ⟨3, ![a, p, k]⟩ ⟨1, ![1]⟩ ⟨3, ![a, q, k]⟩)
    (huw : d.updateWindowDims = [0, 1, 2]) (hiw : d.insertedWindowDims = [])
    (hqp : q ≤ p) (x : (⟨3, ![a, p, k]⟩ : Shape).Idx → α) (idx : IVec ⟨1, ![1]⟩ w) (hidx : ∀ t, idx t = 0)
    (upd : (⟨3, ![a, q, k]⟩ : Shape).Idx → α) (b : Fin a) (e : Fin p) (j : Fin k) :
    Host.scatter d (fun _ y => y) x idx upd (ix3 b e j)
      = if h : e.val < q then upd (ix3 b ⟨e.val, h⟩ j) else x (ix3 b e j) := by
  by_cases h : e.val < q
  · rw [dif_pos h]
    refine scatter_hit d x idx upd _ (ix3 b ⟨e.val, h⟩ j) ?_ fun j' hj' => ?_
    · rw [resultIdx_prefix d huw hiw hqp idx hidx]
      rfl
    · obtain ⟨b', e', jj, rfl⟩ : ∃ (b' : Fin a) (e' : Fin q) (jj : Fin k), j' = ix3 b' e' jj :=
        ⟨j' 0, j' 1, j' 2, eq_ix3 j'⟩
      rw [resultIdx_prefix d huw hiw hqp idx hidx] at hj'
      have e3 := Option.some.inj hj'
      have c0 : b' = b := congrFun e3 0
      have c1 : Fin.castLE hqp e' = e := congrFun e3 1
      have c2 : jj = j := congrFun e3 2
      have c1' : e' = ⟨e.val, h⟩ := Fin.ext (by have hv := congrArg Fin.val c1; exact hv)
      rw [c0, c1', c2]
  · rw [dif_neg h]
    refine scatter_miss d x idx upd _ fun j' hj' => ?_
    obtain ⟨b', e', jj, rfl⟩ : ∃ (b' : Fin a) (e' : Fin q) (jj : Fin k), j' = ix3 b' e' jj :=
      ⟨j' 0, j' 1, j' 2, eq_ix3 j'⟩
    rw [resultIdx_prefix d huw hiw hqp idx hidx] at hj'
    have c1 : Fin.castLE hqp e' = e := congrFun (Option.some.inj hj') 1
    have h1 : e'.val = e.val := by rw [← c1]; rfl
    have := e'.isLt
    omega

end Prefix

end Cert.ScatterPrefix

end
-- ==== Proof.LibBatchLayout.lean ====
/-
  Host operations on a stack of matrices (a rank-3 array [a, n, k] with the stack as its leading axis) read at one
  index, over arbitrary extents and with no program imported:
    * the keep-dimension forms: a trailing unit axis added to [a, n] and broadcast over k, a middle unit axis added
      to [a, k] and broadcast over n;
    * at the exact (extended-real) instance, the host's sum over the last axis and over the middle axis as the
      initial value plus a finite sum, and the host's maximum over the last axis as a fold of max from the
      initial value.
-/
import Idealize.ShloMosaic.PureOps
import Idealize.ShloMosaic.Lib.ValueIdx
import Idealize.ShloMosaic.Lib.Pipeline.Value
import Idealize.ShloMosaic.PureOps.Ideal.Laws

noncomputable section

open scoped BigOperators

namespace Cert.BatchLayout

open Idealize.ShloMosaic Idealize.ShloMosaic.ValueIdx

/-! ## Unit axes added and broadcast -/

section Broadcasts
variable {α : Type} {a n k : Nat}

/-- A trailing unit axis added to an [a, n] array: `(p, i, u)` reads `(p, i)`. -/
theorem addLast_apply (y : (⟨2, ![a, n]⟩ : Shape).Idx → α)
    (h : (⟨2, ![a, n]⟩ : Shape).BroadcastsInDim ⟨3, ![a, n, 1]⟩ (![0, 1] : Fin 2 → Fin 3))
    (p : Fin a) (i : Fin n) (u : Fin 1) :
    broadcastInDim ⟨3, ![a, n, 1]⟩ ![0, 1] h y (ix3 p i u) = y (ix2 p i) := by
  refine broadcastInDim_apply _ h y (ix3 p i u) (ix2 p i) fun ax => ?_
  match ax with
  | ⟨0, _⟩ =>
    show p.val = if a = 1 then 0 else p.val
    split
    · have := p.isLt; omega
    · rfl
  | ⟨1, _⟩ =>
    show i.val = if n = 1 then 0 else i.val
    split
    · have := i.isLt; omega
    · rfl

/-- A trailing unit axis broadcast over `k`: `(p, i, j)` reads `(p, i, 0)`. -/
theorem overLast_apply (y : (⟨3, ![a, n, 1]⟩ : Shape).Idx → α)
    (h : (⟨3, ![a, n, 1]⟩ : Shape).BroadcastsInDim ⟨3, ![a, n, k]⟩ (![0, 1, 2] : Fin 3 → Fin 3))
    (p : Fin a) (i : Fin n) (j : Fin k) :
    broadcastInDim ⟨3, ![a, n, k]⟩ ![0, 1, 2] h y (ix3 p i j) = y (ix3 p i (0 : Fin 1)) := by
  refine broadcastInDim_apply _ h y (ix3 p i j) (ix3 p i (0 : Fin 1)) fun ax => ?_
  match ax with
  | ⟨0, _⟩ =>
    show p.val = if a = 1 then 0 else p.val
    split
    · have := p.isLt; omega
    · rfl
  | ⟨1, _⟩ =>
    show i.val = if n = 1 then 0 else i.val
    split
    · have := i.isLt; omega
    · rfl
  | ⟨2, _⟩ => rfl

/-- A middle unit axis added to an [a, k] array: `(p, u, j)` reads `(p, j)`. -/
theorem addMiddle_apply (y : (⟨2, ![a, k]⟩ : Shape).Idx → α)
    (h : (⟨2, ![a, k]⟩ : Shape).BroadcastsInDim ⟨3, ![a, 1, k]⟩ (![0, 2] : Fin 2 → Fin 3))
    (p : Fin a) (u : Fin 1) (j : Fin k) :
    broadcastInDim ⟨3, ![a, 1, k]⟩ ![0, 2] h y (ix3 p u j) = y (ix2 p j) := by
  refine broadcastInDim_apply _ h y (ix3 p u j) (ix2 p j) fun ax => ?_
  match ax with
  | ⟨0, _⟩ =>
    show p.val = if a = 1 then 0 else p.val
    split
    · have := p.isLt; omega
    · rfl
  | ⟨1, _⟩ =>
    show j.val = if k = 1 then 0 else j.val
    split
    · have := j.isLt; omega
    · rfl

/-- A middle unit axis broadcast over `n`: `(p, i, j)` reads `(p, 0, j)`. -/
theorem overMiddle_apply (y : (⟨3, ![a, 1, k]⟩ : Shape).Idx → α)
    (h : (⟨3, ![a, 1, k]⟩ : Shape).BroadcastsInDim ⟨3, ![a, n, k]⟩ (![0, 1, 2] : Fin 3 → Fin 3))
    (p : Fin a) (i : Fin n) (j : Fin k) :
    broadcastInDim ⟨3, ![a, n, k]⟩ ![0, 1, 2] h y (ix3 p i j) = y (ix3 p (0 : Fin 1) j) := by
  refine broadcastInDim_apply _ h y (ix3 p i j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if k = 1 then 0 else j.val
    split
    · have := j.isLt; omega
    · rfl

/-- A stack of one matrix repeated `a` times: `(p, i, j)` reads `(0, i, j)`. -/
theorem overLead_apply (y : (⟨3, ![1, n, k]⟩ : Shape).Idx → α)
    (h : (⟨3, ![1, n, k]⟩ : Shape).BroadcastsInDim ⟨3, ![a, n, k]⟩ (![0, 1, 2] : Fin 3 → Fin 3))
    (p : Fin a) (i : Fin n) (j : Fin k) :
    broadcastInDim ⟨3, ![a, n, k]⟩ ![0, 1, 2] h y (ix3 p i j) = y (ix3 (0 : Fin 1) i j) := by
  refine broadcastInDim_apply _ h y (ix3 p i j) (ix3 (0 : Fin 1) i j) fun ax => ?_
  match ax with
  | ⟨0, _⟩ => rfl
  | ⟨1, _⟩ =>
    show i.val = if n = 1 then 0 else i.val
    split
    · have := i.isLt; omega
    · rfl
  | ⟨2, _⟩ =>
    show j.val = if k = 1 then 0 else j.val
    split
    · have := j.isLt; omega
    · rfl

end Broadcasts

/-! ## Sums and maxima along an axis -/

section Reductions
variable {a n k : Nat} {φ : FTy}

/-- The index over `(p, i)` with last coordinate `j` inserted is `(p, i, j)`. -/
theorem lift_last (h : (⟨3, ![a, n, k]⟩ : Shape).Reduces [2] ⟨2, ![a, n]⟩) (p : Fin a) (i : Fin n) (j : Fin k) :
    h.lift (ix2 p i) j = ix3 p i j := by
  funext ax
  match ax with
  | ⟨0, _⟩ => exact Fin.ext rfl
  | ⟨1, _⟩ => exact Fin.ext rfl
  | ⟨2, _⟩ => exact Fin.ext rfl

/-- The index over `(p, j)` with middle coordinate `i` inserted is `(p, i, j)`. -/
theorem lift_middle (h : (⟨3, ![a, n, k]⟩ : Shape).Reduces [1] ⟨2, ![a, k]⟩) (p : Fin a) (j : Fin k) (i : Fin n) :
    h.lift (ix2 p j) i = ix3 p i j := by
  funext ax
  match ax with
  | ⟨0, _⟩ => exact Fin.ext rfl
  | ⟨1, _⟩ => exact Fin.ext rfl
  | ⟨2, _⟩ => exact Fin.ext rfl

/-- The host's sum over the last axis at `(p, i)`: the initial value plus the sum over `j`. -/
theorem hostSumLast_apply {u : Shape} (A : FVec Ideal ⟨3, ![a, n, k]⟩ φ) (init : u.Idx → Ideal φ)
    (h' : (⟨3, ![a, n, k]⟩ : Shape).ReducesTo [2] ⟨2, ![a, n]⟩) (h : (⟨3, ![a, n, k]⟩ : Shape).Reduces [2] ⟨2, ![a, n]⟩)
    (hu : 0 < u.numel) (p : Fin a) (i : Fin n) :
    Host.reduceAdd A init h' hu (ix2 p i) = init (Shape.Idx.first hu) + ∑ j : Fin k, A (ix3 p i j) := by
  show Ideal.hostReduceAdd h' A (init (Shape.Idx.first hu)) (ix2 p i) = _
  rw [Ideal.hostReduceAdd_single h' h]
  exact congrArg (_ + ·) (Finset.sum_congr rfl fun j _ => congrArg A (lift_last h p i j))

/-- The host's sum over the middle axis at `(p, j)`: the initial value plus the sum over `i`. -/
theorem hostSumMiddle_apply {u : Shape} (A : FVec Ideal ⟨3, ![a, n, k]⟩ φ) (init : u.Idx → Ideal φ)
    (h' : (⟨3, ![a, n, k]⟩ : Shape).ReducesTo [1] ⟨2, ![a, k]⟩) (h : (⟨3, ![a, n, k]⟩ : Shape).Reduces [1] ⟨2, ![a, k]⟩)
    (hu : 0 < u.numel) (p : Fin a) (j : Fin k) :
    Host.reduceAdd A init h' hu (ix2 p j) = init (Shape.Idx.first hu) + ∑ i : Fin n, A (ix3 p i j) := by
  show Ideal.hostReduceAdd h' A (init (Shape.Idx.first hu)) (ix2 p j) = _
  rw [Ideal.hostReduceAdd_single h' h]
  exact congrArg (_ + ·) (Finset.sum_congr rfl fun i _ => congrArg A (lift_middle h p j i))

/-- The host's maximum over the last axis at `(p, i)`: the fold of max from the initial value over `j`. -/
theorem hostMaxLast_apply {u : Shape} (A : FVec Ideal ⟨3, ![a, n, k]⟩ φ) (init : u.Idx → Ideal φ)
    (h' : (⟨3, ![a, n, k]⟩ : Shape).ReducesTo [2] ⟨2, ![a, n]⟩) (h : (⟨3, ![a, n, k]⟩ : Shape).Reduces [2] ⟨2, ![a, n]⟩)
    (hu : 0 < u.numel) (p : Fin a) (i : Fin n) :
    Host.reduce FloatOps.maximumf A init h' hu (ix2 p i)
      = (Finset.univ : Finset (Fin k)).fold max (init (Shape.Idx.first hu)) (fun j => A (ix3 p i j)) :=
  (Host.reduce_eq_fold_single FloatOps.maximumf A init h' h hu (ix2 p i)).trans
    (congrArg (Finset.fold max (init (Shape.Idx.first hu)) · Finset.univ)
      (funext fun j => congrArg A (lift_last h p i j)))

end Reductions

end Cert.BatchLayout

end
-- ==== Proof.HostPrefix.lean ====
/-
  The arrays the kernel call is handed, as functions of the two arguments.  With r the guide features viewed
  [2, 5, 4096] and s the sources viewed [2, 16, 4096]:
    padded(b, d, j)  = r(b, d, j) for d < 5 and 0 for 5 ≤ d < 8     (a scatter of r into a zero array),
    sqnorm(b, j)     = 0 + Σ_{d<5} r(b, d, j)²,
    scale(b, 0, j)   = exp (−sqnorm(b, j)),
    scaled(b, l, j)  = s(b, l, j) · scale(b, 0, j),
    doubled(b, d, j) = 2 · padded(b, d, j),
  each read at one index.
-/
import proofs.«103740_g40793599377963_cont_8to1_b_790_11_alg».proof.Proof.Gen.KernelIdeal.Frame
import proofs.«103740_g40793599377963_cont_8to1_b_790_11_alg».proof.Proof.LibScatterPrefix
import proofs.«103740_g40793599377963_cont_8to1_b_790_11_alg».proof.Proof.LibBatchLayout
import Idealize.ShloMosaic.Lib.StableHlo.Run
import Idealize.ShloMosaic.Lib.ValueLayout

noncomputable section

open scoped BigOperators

namespace Cert.KernelIdeal.Prefix

open Idealize.ShloMosaic Idealize.ShloMosaic.TcCoe Idealize.ShloMosaic.ValueIdx Idealize.SL.Sem Cert.KernelIdeal Cert.KernelIdeal.Gen

/-! ## The operations before the kernel call, named -/

section Terms
variable {F : FTy → Type} [FloatOps F]

/-- The guide features viewed [2, 5, 4096]. -/
def guide (x1 : FVec F S2x5x64x64 .f32) : FVec F S2x5x4096 .f32 := shapeCast S2x5x4096 x1 shapeCasts_S2x5x64x64_S2x5x4096
/-- The sources viewed [2, 16, 4096]. -/
def source (x0 : FVec F S2x16x64x64 .f32) : FVec F S2x16x4096 .f32 := shapeCast S2x16x4096 x0 shapeCasts_S2x16x64x64_S2x16x4096
/-- The start index of the scatter: the word zero. -/
def startIdx : IVec S1 32 := broadcastInDim S1 ![] bcast_S_S1 (constantI S_ 32 0#32)
/-- The guide features zero-padded to eight rows. -/
def padded (x1 : FVec F S2x5x64x64 .f32) : FVec F S2x8x4096 .f32 :=
  Host.scatter scatter_S2x8x4096_S1_S2x5x4096_012_n_1_0 (fun _ b => b)
    (broadcastInDim S2x8x4096 ![] bcast_S_S2x8x4096 (constant (F := F) S_ .f32 0x00000000#32)) startIdx (guide x1)
/-- The squared norms. -/
def sqnorm (x1 : FVec F S2x5x64x64 .f32) : FVec F S2x4096 .f32 :=
  Host.reduceAdd (mulf (guide x1) (guide x1)) (constant (F := F) S_ .f32 0x00000000#32) reducesTo_S2x5x4096_S2x4096_d1 h_S_
/-- The row of scale factors. -/
def scale (x1 : FVec F S2x5x64x64 .f32) : FVec F S2x1x4096 .f32 :=
  Host.exp (Host.negf (broadcastInDim S2x1x4096 ![0, 2] bcast_S2x4096_S2x1x4096_0_2 (sqnorm x1)))
/-- The scaled sources. -/
def scaled (x0 : FVec F S2x16x64x64 .f32) (x1 : FVec F S2x5x64x64 .f32) : FVec F S2x16x4096 .f32 :=
  mulf (source x0) (broadcastInDim S2x16x4096 ![0, 1, 2] bcast_S2x1x4096_S2x16x4096_0_1_2 (scale x1))
/-- The doubled padded guide features. -/
def doubled (x1 : FVec F S2x5x64x64 .f32) : FVec F S2x8x4096 .f32 :=
  mulf (broadcastInDim S2x8x4096 ![] bcast_S_S2x8x4096 (constant (F := F) S_ .f32 0x40000000#32)) (padded x1)

variable (m : (ℓ : Loc nD τ sig) → Buf (Elt F) ℓ)

theorem V_v0 (c : Dev nD) : (V m c main_v0 : FVec F S2x16x4096 .f32) = source (m ((c : Thread nD τ).loc main_arg0)) := by
  show StableHlo.after hostOps0 (fun b => m (c, b)) (Proc.devRef .tc main_v0) = _
  after_results
  rfl
theorem V_v4 (c : Dev nD) : (V m c main_v4 : FVec F S2x8x4096 .f32) = padded (m ((c : Thread nD τ).loc main_arg1)) := by
  show StableHlo.after hostOps0 (fun b => m (c, b)) (Proc.devRef .tc main_v4) = _
  after_results
  rfl
theorem V_v9 (c : Dev nD) : (V m c main_v9 : FVec F S2x1x4096 .f32) = scale (m ((c : Thread nD τ).loc main_arg1)) := by
  show StableHlo.after hostOps0 (fun b => m (c, b)) (Proc.devRef .tc main_v9) = _
  after_results
  rfl
theorem V_v11 (c : Dev nD) : (V m c main_v11 : FVec F S2x16x4096 .f32)
    = scaled (m ((c : Thread nD τ).loc main_arg0)) (m ((c : Thread nD τ).loc main_arg1)) := by
  show StableHlo.after hostOps0 (fun b => m (c, b)) (Proc.devRef .tc main_v11) = _
  after_results
  rfl
theorem V_v13 (c : Dev nD) : (V m c main_v13 : FVec F S2x8x4096 .f32) = doubled (m ((c : Thread nD τ).loc main_arg1)) := by
  show StableHlo.after hostOps0 (fun b => m (c, b)) (Proc.devRef .tc main_v13) = _
  after_results
  rfl

end Terms

/-! ## Each read at an index, on the extended reals -/

section Apply
variable (x0 : FVec Ideal S2x16x64x64 .f32) (x1 : FVec Ideal S2x5x64x64 .f32)

theorem startIdx_apply (t : S1.Idx) : startIdx t = 0 := by
  unfold startIdx
  rw [broadcastInDim_apply _ bcast_S_S1 _ t ix0 (fun a => a.elim0)]
  rfl

theorem padded_apply (b : Fin 2) (d : Fin 8) (j : Fin 4096) :
    padded x1 (ix3 b d j) = if h : d.val < 5 then guide x1 (ix3 b ⟨d.val, h⟩ j) else 0 := by
  unfold padded
  rw [Cert.ScatterPrefix.scatter_prefix_apply scatter_S2x8x4096_S1_S2x5x4096_012_n_1_0 rfl rfl (by decide) _ startIdx
    startIdx_apply (guide x1) b d j]
  refine dite_congr rfl (fun _ => rfl) (fun _ => ?_)
  rw [broadcastInDim_apply _ bcast_S_S2x8x4096 _ (ix3 b d j) ix0 (fun a => a.elim0)]
  exact Ideal.ofBits_zero_f32

theorem sqnorm_apply (b : Fin 2) (j : Fin 4096) :
    sqnorm x1 (ix2 b j) = 0 + ∑ d : Fin 5, guide x1 (ix3 b d j) * guide x1 (ix3 b d j) := by
  unfold sqnorm
  rw [Cert.BatchLayout.hostSumMiddle_apply _ _ reducesTo_S2x5x4096_S2x4096_d1 (by decide) h_S_ b j]
  refine congrArg₂ (· + ·) Ideal.ofBits_zero_f32 rfl

theorem scale_apply (b : Fin 2) (u : Fin 1) (j : Fin 4096) :
    scale x1 (ix3 b u j) = Ideal.exp (-(sqnorm x1 (ix2 b j))) := by
  unfold scale
  show Ideal.exp (-(broadcastInDim S2x1x4096 ![0, 2] bcast_S2x4096_S2x1x4096_0_2 (sqnorm x1) (ix3 b u j))) = _
  rw [Cert.BatchLayout.addMiddle_apply]

theorem scaled_apply (b : Fin 2) (l : Fin 16) (j : Fin 4096) :
    scaled x0 x1 (ix3 b l j) = source x0 (ix3 b l j) * scale x1 (ix3 b (0 : Fin 1) j) := by
  unfold scaled
  rw [mulf_apply, Cert.BatchLayout.overMiddle_apply]

theorem doubled_apply (b : Fin 2) (d : Fin 8) (j : Fin 4096) :
    doubled x1 (ix3 b d j) = Ideal.ofBits .f32 0x40000000#32 * padded x1 (ix3 b d j) := by
  unfold doubled
  rw [mulf_apply, broadcastInDim_apply _ bcast_S_S2x8x4096 _ (ix3 b d j) ix0 (fun a => a.elim0)]
  rfl

end Apply

end Cert.KernelIdeal.Prefix

end
-- ==== Proof.ReferenceValue.lean ====
/-
  The reference, read in coordinates.  With r the guide features viewed [2, 5, 4096] and s the sources viewed
  [2, 16, 4096], the reference forms the squared norms q(b, n) = 0 + Σ_d r(b, d, n)², the inner products
  I(b, n, m) = Σ_d r(b, d, n)·r(b, d, m), the weights exp(−((q(b, n) + q(b, m)) − 2·I(b, n, m))), sums each weight row
  against the sources, and subtracts the sources after viewing the sums [2, 16, 64, 64].  Each stage is read at an
  index from the generated one-operation lemmas.
-/
import proofs.«103740_g40793599377963_cont_8to1_b_790_11_alg».proof.Proof.Gen.ReferenceIdeal.Read
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

variable (x0 : FVec Ideal S2x16x64x64 .f32) (x1 : FVec Ideal S2x5x64x64 .f32)

/-- The weighted sums of the reference at image b, channel l, position n. -/
def weighted (s : FVec Ideal S2x16x4096 .f32) (r : FVec Ideal S2x5x4096 .f32) (b : Fin 2) (l : Fin 16) (n : Fin 4096) : EReal :=
  ∑ m : Fin 4096, Ideal.exp (-(((0 + ∑ d : Fin 5, r (ix3 b d n) * r (ix3 b d n)) + (0 + ∑ d : Fin 5, r (ix3 b d m) * r (ix3 b d m)))
      - Ideal.ofBits .f32 0x40000000#32 * ∑ d : Fin 5, r (ix3 b d n) * r (ix3 b d m))) * s (ix3 b l m)

theorem v3_at (b : Fin 2) (n : Fin 4096) (d : Fin 5) :
    val_main_v3 (F := Ideal) x1 (ix3 b n d) = val_main_v2 (F := Ideal) x1 (ix3 b d n) := by
  rw [val_main_v3_apply]
  exact congrArg (val_main_v2 (F := Ideal) x1) (funext fun a => Fin.ext (by match a with | ⟨0, _⟩ => rfl | ⟨1, _⟩ => rfl | ⟨2, _⟩ => rfl))

theorem v5_at (b : Fin 2) (n : Fin 4096) :
    val_main_v5 (F := Ideal) x1 (ix2 b n)
      = 0 + ∑ d : Fin 5, val_main_v2 (F := Ideal) x1 (ix3 b d n) * val_main_v2 (F := Ideal) x1 (ix3 b d n) := by
  rw [val_main_v5_apply]
  refine congrArg₂ (· + ·) ((val_main_cst_apply _).trans Ideal.ofBits_zero_f32) (Finset.sum_congr rfl fun d _ => ?_)
  have e : idx_main_v5 (ix2 b n) d = ix3 b n d := funext fun a => Fin.ext (by match a with | ⟨0, _⟩ => rfl | ⟨1, _⟩ => rfl | ⟨2, _⟩ => rfl)
  rw [e, val_main_v4_apply, v3_at]
  rfl

theorem v6_at (b : Fin 2) (n m : Fin 4096) :
    val_main_v6 (F := Ideal) x1 (ix3 b n m)
      = ∑ d : Fin 5, val_main_v2 (F := Ideal) x1 (ix3 b d n) * val_main_v2 (F := Ideal) x1 (ix3 b d m) := by
  rw [val_main_v6_apply]
  refine Finset.sum_congr rfl fun d _ => ?_
  have el : lidx_main_v6 (ix3 b n m) d = ix3 b n d := funext fun a => Fin.ext (by match a with | ⟨0, _⟩ => rfl | ⟨1, _⟩ => rfl | ⟨2, _⟩ => rfl)
  have er : ridx_main_v6 (ix3 b n m) d = ix3 b m d := funext fun a => Fin.ext (by match a with | ⟨0, _⟩ => rfl | ⟨1, _⟩ => rfl | ⟨2, _⟩ => rfl)
  rw [el, er, v3_at, v3_at]

theorem v16_at (b : Fin 2) (n m : Fin 4096) :
    val_main_v16 (F := Ideal) x1 (ix3 b n m)
      = Ideal.exp (-(((0 + ∑ d : Fin 5, val_main_v2 (F := Ideal) x1 (ix3 b d n) * val_main_v2 (F := Ideal) x1 (ix3 b d n))
            + (0 + ∑ d : Fin 5, val_main_v2 (F := Ideal) x1 (ix3 b d m) * val_main_v2 (F := Ideal) x1 (ix3 b d m)))
          - Ideal.ofBits .f32 0x40000000#32 * ∑ d : Fin 5, val_main_v2 (F := Ideal) x1 (ix3 b d n) * val_main_v2 (F := Ideal) x1 (ix3 b d m))) := by
  rw [val_main_v16_apply, val_main_v15_apply, val_main_v14_apply, val_main_v11_apply, val_main_v13_apply, val_main_v9_apply,
    val_main_v7_apply, val_main_v10_apply, val_main_v8_apply, val_main_v12_apply, val_main_cst_0_apply]
  have e9 : idx_main_v7 (idx_main_v9 (ix3 b n m)) = ix2 b n := funext fun a => Fin.ext (by match a with | ⟨0, _⟩ => rfl | ⟨1, _⟩ => rfl)
  have e10 : idx_main_v8 (idx_main_v10 (ix3 b n m)) = ix2 b m := funext fun a => Fin.ext (by match a with | ⟨0, _⟩ => rfl | ⟨1, _⟩ => rfl)
  rw [e9, e10, v5_at, v5_at, v6_at]
  rfl

theorem v18_at (b : Fin 2) (l : Fin 16) (n : Fin 4096) :
    val_main_v18 (F := Ideal) x0 x1 (ix3 b l n) = weighted (val_main_v0 (F := Ideal) x0) (val_main_v2 (F := Ideal) x1) b l n := by
  rw [val_main_v18_apply]
  have e18 : idx_main_v18 (ix3 b l n) = ix3 b n l := funext fun a => Fin.ext (by match a with | ⟨0, _⟩ => rfl | ⟨1, _⟩ => rfl | ⟨2, _⟩ => rfl)
  rw [e18, val_main_v17_apply]
  unfold weighted
  refine Finset.sum_congr rfl fun k _ => ?_
  have el : lidx_main_v17 (ix3 b n l) k = ix3 b n k := funext fun a => Fin.ext (by match a with | ⟨0, _⟩ => rfl | ⟨1, _⟩ => rfl | ⟨2, _⟩ => rfl)
  have er : ridx_main_v17 (ix3 b n l) k = ix3 b k l := funext fun a => Fin.ext (by match a with | ⟨0, _⟩ => rfl | ⟨1, _⟩ => rfl | ⟨2, _⟩ => rfl)
  have e1 : idx_main_v1 (ix3 b k l) = ix3 b l k := funext fun a => Fin.ext (by match a with | ⟨0, _⟩ => rfl | ⟨1, _⟩ => rfl | ⟨2, _⟩ => rfl)
  rw [el, er, v16_at, val_main_v1_apply, e1]

/-- The reshape [2, 16, 4096] → [2, 16, 64, 64] read at an index, for any array. -/
theorem reshape_apply (y : FVec Ideal S2x16x4096 .f32) (h : S2x16x4096.ShapeCasts S2x16x64x64) (i : S2x16x64x64.Idx) :
    shapeCast S2x16x64x64 y h i = y (idx_main_v19 i) :=
  shapeCast_apply y h i (idx_main_v19 i)
    (by rewrite [Shape.rowMajor_val_three, Shape.rowMajor_val_four]; have h0 : (i 0).val < 2 := (i 0).isLt; have h1 : (i 1).val < 16 := (i 1).isLt; have h2 : (i 2).val < 64 := (i 2).isLt; have h3 : (i 3).val < 64 := (i 3).isLt; show (((((i 0).val * 16 + (i 1).val) * 64 + (i 2).val) * 64 + (i 3).val) / 65536 * 16 + ((((i 0).val * 16 + (i 1).val) * 64 + (i 2).val) * 64 + (i 3).val) / 4096 % 16) * 4096 + ((((i 0).val * 16 + (i 1).val) * 64 + (i 2).val) * 64 + (i 3).val) % 4096 = (((i 0).val * 16 + (i 1).val) * 64 + (i 2).val) * 64 + (i 3).val; omega)

/-- Viewing [2, 16, 64, 64] as [2, 16, 4096] and back lands on the same element. -/
theorem source_at (i : S2x16x64x64.Idx) : val_main_v0 (F := Ideal) x0 (idx_main_v19 i) = x0 i := by
  rw [val_main_v0_apply]
  refine congrArg x0 (funext fun a => Fin.ext ?_)
  have h0 : (i 0).val < 2 := (i 0).isLt
  have h1 : (i 1).val < 16 := (i 1).isLt
  have h2 : (i 2).val < 64 := (i 2).isLt
  have h3 : (i 3).val < 64 := (i 3).isLt
  match a with
  | ⟨0, _⟩ =>
    show ((((((i 0).val * 16 + (i 1).val) * 64 + (i 2).val) * 64 + (i 3).val) / 65536 * 16 + ((((i 0).val * 16 + (i 1).val) * 64 + (i 2).val) * 64 + (i 3).val) / 4096 % 16) * 4096 + ((((i 0).val * 16 + (i 1).val) * 64 + (i 2).val) * 64 + (i 3).val) % 4096) / 65536 = (i 0).val
    omega
  | ⟨1, _⟩ =>
    show ((((((i 0).val * 16 + (i 1).val) * 64 + (i 2).val) * 64 + (i 3).val) / 65536 * 16 + ((((i 0).val * 16 + (i 1).val) * 64 + (i 2).val) * 64 + (i 3).val) / 4096 % 16) * 4096 + ((((i 0).val * 16 + (i 1).val) * 64 + (i 2).val) * 64 + (i 3).val) % 4096) / 4096 % 16 = (i 1).val
    omega
  | ⟨2, _⟩ =>
    show ((((((i 0).val * 16 + (i 1).val) * 64 + (i 2).val) * 64 + (i 3).val) / 65536 * 16 + ((((i 0).val * 16 + (i 1).val) * 64 + (i 2).val) * 64 + (i 3).val) / 4096 % 16) * 4096 + ((((i 0).val * 16 + (i 1).val) * 64 + (i 2).val) * 64 + (i 3).val) % 4096) / 64 % 64 = (i 2).val
    omega
  | ⟨3, _⟩ =>
    show ((((((i 0).val * 16 + (i 1).val) * 64 + (i 2).val) * 64 + (i 3).val) / 65536 * 16 + ((((i 0).val * 16 + (i 1).val) * 64 + (i 2).val) * 64 + (i 3).val) / 4096 % 16) * 4096 + ((((i 0).val * 16 + (i 1).val) * 64 + (i 2).val) * 64 + (i 3).val) % 4096) % 64 = (i 3).val
    omega

/-- The reference's result at an index: the weighted sum at the index's image, channel and position, less the
    source there. -/
theorem result_at (i : S2x16x64x64.Idx) (b : Fin 2) (l : Fin 16) (n : Fin 4096) (hi : idx_main_v19 i = ix3 b l n) :
    val_main_v20 (F := Ideal) x0 x1 i
      = weighted (val_main_v0 (F := Ideal) x0) (val_main_v2 (F := Ideal) x1) b l n - x0 i := by
  rw [val_main_v20_apply, val_main_v19_apply, hi, v18_at]
  rfl

end Cert.ReferenceIdeal.RefValue

end
-- ==== Proof.LibZeroTail.lean ====
/-
  A finite sum whose terms vanish from some position on is the sum of the terms before that position: padding a
  family with zeros does not change its sum. Stated for any additive commutative monoid (so also on the extended
  reals, where no subtraction is available), over `Fin N` cut at `n ≤ N`.
-/
import Mathlib.Algebra.BigOperators.Fin

namespace ZeroTail

/-- If `f k = 0` for every `k` with `n ≤ k`, the sum of `f` over `Fin N` is the sum of its first `n` terms. -/
theorem sum_eq_sum_castLE {M : Type*} [AddCommMonoid M] {N : ℕ} (n : ℕ) (hn : n ≤ N) (f : Fin N → M)
    (hf : ∀ k : Fin N, n ≤ k.val → f k = 0) :
    ∑ k : Fin N, f k = ∑ k : Fin n, f (Fin.castLE hn k) := by
  obtain ⟨p, rfl⟩ := Nat.exists_eq_add_of_le hn
  have tail : ∑ i : Fin p, f (Fin.natAdd n i) = 0 :=
    Finset.sum_eq_zero fun i _ => hf _ (by rw [Fin.coe_natAdd]; exact Nat.le_add_right n i.val)
  rw [Fin.sum_univ_add, tail, add_zero]
  rfl

end ZeroTail
-- ==== Proof.GaussianLaw.lean ====
/-
  The algebra that joins the two arrangements of a Gaussian-affinity filter.  With squared norms
  q(j) = Σ_d R(d,j)² and inner products I(n,j) = Σ_d R(d,n)·R(d,j), the weight exp(-((q(n) + q(j)) - c·I(n,j)))
  factors as exp(-q(n)) · exp(-q(j)) · exp(c·I(n,j)); one arrangement sums the unfactored weights against the
  sources, the other scales the sources by exp(-q(j)), weighs them by exp(Σ_d (c·R(d,n))·R(d,j)) and multiplies the
  sum by exp(-q(n)).  Over the real numbers the two agree (the exponential of a sum, a constant moved out of a finite
  sum); on the extended reals the statement is made for families of real numbers, since moving the factor
  exp(-q(n)) across the sum is not valid at the infinities.
-/
import Idealize.ShloMosaic.PureOps.Ideal
import proofs.«103740_g40793599377963_cont_8to1_b_790_11_alg».proof.Proof.LibZeroTail

noncomputable section

open scoped BigOperators

namespace Cert.GaussianLaw

open Idealize.ShloMosaic

/-- The embedding of the reals in the extended reals commutes with finite sums. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- The exponential of a real number, on the extended reals, is the real exponential. -/
theorem exp_coe (x : ℝ) : Ideal.exp (x : EReal) = ((Real.exp x : ℝ) : EReal) := rfl

/-- Over the reals: the scaled-and-reweighted sum is the sum of the unfactored weights against the sources. -/
theorem law_real {ι κ : Type*} [Fintype ι] [Fintype κ] (R : κ → ι → ℝ) (S : ι → ℝ) (c : ℝ) (n : ι) :
    (∑ j, (S j * Real.exp (-(∑ d, R d j * R d j))) * Real.exp (∑ d, (c * R d n) * R d j)) * Real.exp (-(∑ d, R d n * R d n))
      = ∑ m, Real.exp (-(((∑ d, R d n * R d n) + (∑ d, R d m * R d m)) - c * ∑ d, R d n * R d m)) * S m := by
  rw [Finset.sum_mul]
  refine Finset.sum_congr rfl fun j _ => ?_
  have h : ∑ d, (c * R d n) * R d j = c * ∑ d, R d n * R d j := by
    rw [Finset.mul_sum]
    exact Finset.sum_congr rfl fun d _ => mul_assoc _ _ _
  rw [h]
  have e : Real.exp (-(((∑ d, R d n * R d n) + (∑ d, R d j * R d j)) - c * ∑ d, R d n * R d j))
      = Real.exp (-(∑ d, R d j * R d j)) * Real.exp (c * ∑ d, R d n * R d j) * Real.exp (-(∑ d, R d n * R d n)) := by
    rw [← Real.exp_add, ← Real.exp_add]
    congr 1
    ring
  rw [e]
  ring

/-- The same on the extended reals, for real families: the value one arrangement leaves at position `n`, less the
    source there, is the other's. -/
theorem law {ι κ : Type*} [Fintype ι] [Fintype κ] (R : κ → ι → ℝ) (S : ι → ℝ) (c : ℝ) (n : ι) :
    (∑ j, ((S j : EReal) * Ideal.exp (-(∑ d, (R d j : EReal) * (R d j : EReal))))
          * Ideal.exp (∑ d, ((c : EReal) * (R d n : EReal)) * (R d j : EReal)))
        * Ideal.exp (-(∑ d, (R d n : EReal) * (R d n : EReal))) - (S n : EReal)
      = (∑ m, Ideal.exp (-(((∑ d, (R d n : EReal) * (R d n : EReal)) + (∑ d, (R d m : EReal) * (R d m : EReal)))
            - (c : EReal) * ∑ d, (R d n : EReal) * (R d m : EReal))) * (S m : EReal)) - (S n : EReal) := by
  simp only [← EReal.coe_mul, coe_sum, ← EReal.coe_add, ← EReal.coe_neg, ← EReal.coe_sub, exp_coe]
  rw [law_real R S c n]

/-- A sum over eight terms of which only the first five can be non-zero is the sum of those five. -/
theorem sum_eight_eq_five (f : Fin 8 → EReal) (hf : ∀ k : Fin 8, 5 ≤ k.val → f k = 0) :
    ∑ k : Fin 8, f k = ∑ k : Fin 5, f (Fin.castLE (by decide) k) :=
  ZeroTail.sum_eq_sum_castLE 5 (by decide) f hf

end Cert.GaussianLaw

end
-- ==== Proof.Bridge.lean ====
/-
  The two arrangements meet.  In coordinates (image b, channel l, position n), with r the guide features and s the
  sources, the kernel's array is
      (Σ_j (s(b,l,j) · exp(−q(b,j))) · exp(Σ_{d<8} (2·p(b,d,n)) · p(b,d,j))) · exp(−q(b,n)) − s(b,l,n)
  (p the zero-padded features, q the squared norms), and the reference's is
      Σ_m exp(−((q(b,n) + q(b,m)) − 2·Σ_{d<5} r(b,d,n)·r(b,d,m))) · s(b,l,m) − s(b,l,n).
  The padded rows contribute nothing to the inner product; for real arguments the rest is the factorisation of the
  exponential (GaussianLaw).
-/
import proofs.«103740_g40793599377963_cont_8to1_b_790_11_alg».proof.Proof.HostPrefix
import proofs.«103740_g40793599377963_cont_8to1_b_790_11_alg».proof.Proof.KernelPoint
import proofs.«103740_g40793599377963_cont_8to1_b_790_11_alg».proof.Proof.ReferenceValue
import proofs.«103740_g40793599377963_cont_8to1_b_790_11_alg».proof.Proof.GaussianLaw

noncomputable section

open scoped BigOperators

namespace Cert.Bridge

open Idealize.ShloMosaic Idealize.ShloMosaic.ValueIdx Cert.KernelIdeal Cert.KernelIdeal.Prefix

/-- The word `0x40000000` is the number two. -/
theorem ofBits_two_f32 : Ideal.ofBits .f32 0x40000000#32 = ((2 : ℝ) : EReal) := by
  simp [Ideal.ofBits, Ideal.ieee, -EReal.coe_mul]
  norm_num

variable (x0 : FVec Ideal S2x16x64x64 .f32) (x1 : FVec Ideal S2x5x64x64 .f32)

/-- The inner product over the eight padded rows is the one over the five feature rows. -/
theorem inner8 (b : Fin 2) (n j : Fin 4096) :
    ∑ d : Fin 8, doubled x1 (ix3 b d n) * padded x1 (ix3 b d j)
      = ∑ d : Fin 5, (Ideal.ofBits .f32 0x40000000#32 * guide x1 (ix3 b d n)) * guide x1 (ix3 b d j) := by
  rw [Cert.GaussianLaw.sum_eight_eq_five (fun d => doubled x1 (ix3 b d n) * padded x1 (ix3 b d j)) (fun k hk => by
    show doubled x1 (ix3 b k n) * padded x1 (ix3 b k j) = 0
    rw [padded_apply x1 b k j, dif_neg (by omega), mul_zero])]
  refine Finset.sum_congr rfl fun d _ => ?_
  have hd : (Fin.castLE (by decide : 5 ≤ 8) d).val < 5 := d.isLt
  show doubled x1 (ix3 b (Fin.castLE (by decide : 5 ≤ 8) d) n) * padded x1 (ix3 b (Fin.castLE (by decide : 5 ≤ 8) d) j) = _
  rw [doubled_apply, padded_apply, padded_apply, dif_pos hd, dif_pos hd]
  rfl

/-- The kernel's array in coordinates, over the features and sources. -/
theorem kernel_form (b : Fin 2) (l : Fin 16) (n : Fin 4096) :
    Step.filtered (doubled x1) (padded x1) (scaled x0 x1) (scale x1) (source x0) (ix3 b l n)
      = (∑ j : Fin 4096, (source x0 (ix3 b l j) * Ideal.exp (-(∑ d : Fin 5, guide x1 (ix3 b d j) * guide x1 (ix3 b d j))))
            * Ideal.exp (∑ d : Fin 5, (Ideal.ofBits .f32 0x40000000#32 * guide x1 (ix3 b d n)) * guide x1 (ix3 b d j)))
          * Ideal.exp (-(∑ d : Fin 5, guide x1 (ix3 b d n) * guide x1 (ix3 b d n))) - source x0 (ix3 b l n) := by
  rw [Step.filtered_apply, scale_apply, sqnorm_apply, zero_add]
  refine congrArg₂ (· - ·) (congrArg₂ (· * ·) (Finset.sum_congr rfl fun j _ => ?_) rfl) rfl
  rw [scaled_apply, scale_apply, sqnorm_apply, zero_add, inner8]

/-- The reference's weighted sums without the zero the host sums start from. -/
theorem ref_form (s : FVec Ideal S2x16x4096 .f32) (r : FVec Ideal S2x5x4096 .f32) (b : Fin 2) (l : Fin 16) (n : Fin 4096) :
    Cert.ReferenceIdeal.RefValue.weighted s r b l n
      = ∑ m : Fin 4096, Ideal.exp (-(((∑ d : Fin 5, r (ix3 b d n) * r (ix3 b d n)) + (∑ d : Fin 5, r (ix3 b d m) * r (ix3 b d m)))
          - Ideal.ofBits .f32 0x40000000#32 * ∑ d : Fin 5, r (ix3 b d n) * r (ix3 b d m))) * s (ix3 b l m) := by
  unfold Cert.ReferenceIdeal.RefValue.weighted
  simp only [zero_add]

/-- For real arguments the kernel's array is the reference's weighted sums less the sources. -/
theorem kernel_eq_reference (hx0 : ∀ i, ∃ t : ℝ, x0 i = t) (hx1 : ∀ i, ∃ t : ℝ, x1 i = t) (b : Fin 2) (l : Fin 16) (n : Fin 4096) :
    Step.filtered (doubled x1) (padded x1) (scaled x0 x1) (scale x1) (source x0) (ix3 b l n)
      = Cert.ReferenceIdeal.RefValue.weighted (source x0) (guide x1) b l n - source x0 (ix3 b l n) := by
  have hs : ∀ i, ∃ t : ℝ, source x0 i = t := fun i => hx0 _
  have hr : ∀ i, ∃ t : ℝ, guide x1 i = t := fun i => hx1 _
  choose S hS using hs
  choose R hR using hr
  have hSrc : source x0 = fun i => (S i : EReal) := funext hS
  have hG : guide x1 = fun i => (R i : EReal) := funext hR
  rw [kernel_form, ref_form, hSrc, hG, ofBits_two_f32]
  exact Cert.GaussianLaw.law (fun d j => R (ix3 b d j)) (fun j => S (ix3 b l j)) 2 n

end Cert.Bridge

end
-- ==== Proof.Finite.lean ====
/-
  What the precondition gives: every element of both arguments is a real number.  The precondition is the
  conjunction of two tests "all |x| < +inf"; an all-test that came out true was true of every element, and an
  extended real whose absolute value max(x, −x) lies below +inf is neither infinity.
-/
import proofs.«103740_g40793599377963_cont_8to1_b_790_11_alg».proof.Pre_finite_inputs
import proofs.«103740_g40793599377963_cont_8to1_b_790_11_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx Cert.Pre_finite_inputs Cert.Pre_finite_inputs.Gen

instance : Subsingleton S_.Idx := ⟨fun a b => funext fun d => d.elim0⟩

/-- The word `0x7F800000` is `+inf`. -/
theorem ofBits_posInf_f32 : Ideal.ofBits .f32 0x7F800000#32 = ⊤ := by
  simp [Ideal.ofBits, Ideal.ieee]

/-- An extended real whose absolute value is below `+inf` is a real number. -/
theorem real_of_abs_lt (x : EReal) (h : Ideal.cmp .olt (max x (-x)) ⊤ = 1#1) : ∃ r : ℝ, x = r := by
  have hlt : max x (-x) < ⊤ := by
    by_contra hn
    unfold Ideal.cmp at h
    simp [hn] at h
  have h1 : x < ⊤ := lt_of_le_of_lt (le_max_left _ _) hlt
  have h2 : -x < ⊤ := lt_of_le_of_lt (le_max_right _ _) hlt
  induction x using EReal.rec with
  | bot => simp at h2
  | coe r => exact ⟨r, rfl⟩
  | top => exact absurd h1 (lt_irrefl _)

/-- One element of an array that passed the test. -/
theorem real_of_test {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = r := by
  refine real_of_abs_lt (x i) ?_
  have e : broadcastInDim s ![] hb (constant (F := Ideal) S_ .f32 0x7F800000#32) i = ⊤ := by
    rw [broadcastInDim_apply _ hb _ i ix0 (fun a => a.elim0)]
    exact ofBits_posInf_f32
  rw [← e]
  exact h

/-- The precondition makes every element of both arguments real. -/
theorem reals_of_pre (x0 : FVec Ideal S2x16x64x64 .f32) (x1 : FVec Ideal S2x5x64x64 .f32)
    (h : fn (F := Ideal) x0 x1 = fun _ => 1#1) : (∀ i, ∃ r : ℝ, x0 i = r) ∧ (∀ i, ∃ r : ℝ, x1 i = r) := by
  have h0 := congrFun h ix0
  dsimp only [fn] at h0
  obtain ⟨ha, hb⟩ := IntOp.andi_eq_one.1 h0
  exact ⟨fun i => real_of_test x0 _ i (Host.reduce_andi_all _ _ _ _ _ ha i),
    fun i => real_of_test x1 _ i (Host.reduce_andi_all _ _ _ _ _ hb i)⟩

end Cert.Finite

end
-- ==== Proof.lean ====
/-
  A Gaussian-affinity filter over the positions of an image: for image b, channel l and position n the result is
      Σ_m exp(−‖r_n − r_m‖²) · s(l, m) − s(l, n),
  with r the guide features (five per position) and s the sources.  The reference expands the squared distance as
  q_n + q_m − 2⟨r_n, r_m⟩ and sums the weights against the sources.  The kernel never forms the weights: it scales
  the sources by exp(−q_m) beforehand, takes exp(2⟨r_n, r_m⟩) off a product of the features zero-padded to eight rows,
  sums, and multiplies the sum by exp(−q_n); each grid step does this for 512 positions of one image.

  The certificate: the three programs run and keep their arguments (the kernel's two frames are generated, the
  reference's is its generated run); the idealization rewrote nothing; and on the extended reals, for finite
  inputs, the two results agree element by element — the kernel's output array is read off its frame run block by
  block (KernelArray), the arrays it is handed are read at an index (HostPrefix), the reference is read in
  coordinates (ReferenceValue), and the two meet by the factorisation exp(−(q_n + q_m − c)) = exp(−q_n)·exp(−q_m)·exp(c),
  valid for real numbers (Bridge, GaussianLaw), which is where finiteness of the inputs is used (Finite).
-/
import proofs.«103740_g40793599377963_cont_8to1_b_790_11_alg».proof.Defs
import proofs.«103740_g40793599377963_cont_8to1_b_790_11_alg».proof.Proof.Gen.Kernel
import proofs.«103740_g40793599377963_cont_8to1_b_790_11_alg».proof.Proof.Gen.Kernel.Skeleton
import proofs.«103740_g40793599377963_cont_8to1_b_790_11_alg».proof.Proof.Gen.Kernel.Launch
import proofs.«103740_g40793599377963_cont_8to1_b_790_11_alg».proof.Proof.Gen.Kernel.Points
import proofs.«103740_g40793599377963_cont_8to1_b_790_11_alg».proof.Proof.Gen.Kernel.Frame
import proofs.«103740_g40793599377963_cont_8to1_b_790_11_alg».proof.Proof.Gen.KernelIdeal
import proofs.«103740_g40793599377963_cont_8to1_b_790_11_alg».proof.Proof.Gen.KernelIdeal.Skeleton
import proofs.«103740_g40793599377963_cont_8to1_b_790_11_alg».proof.Proof.Gen.KernelIdeal.Launch
import proofs.«103740_g40793599377963_cont_8to1_b_790_11_alg».proof.Proof.Gen.KernelIdeal.Points
import proofs.«103740_g40793599377963_cont_8to1_b_790_11_alg».proof.Proof.Gen.KernelIdeal.Frame
import proofs.«103740_g40793599377963_cont_8to1_b_790_11_alg».proof.Proof.Gen.ReferenceIdeal
import proofs.«103740_g40793599377963_cont_8to1_b_790_11_alg».proof.Proof.Gen.ReferenceIdeal.Run
import proofs.«103740_g40793599377963_cont_8to1_b_790_11_alg».proof.Proof.Gen.ReferenceIdeal.Read
import proofs.«103740_g40793599377963_cont_8to1_b_790_11_alg».proof.Proof.Gen.Pre_finite_inputs
import proofs.«103740_g40793599377963_cont_8to1_b_790_11_alg».proof.Proof.KernelArray
import proofs.«103740_g40793599377963_cont_8to1_b_790_11_alg».proof.Proof.HostPrefix
import proofs.«103740_g40793599377963_cont_8to1_b_790_11_alg».proof.Proof.ReferenceValue
import proofs.«103740_g40793599377963_cont_8to1_b_790_11_alg».proof.Proof.Bridge
import proofs.«103740_g40793599377963_cont_8to1_b_790_11_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- For real arguments, the reference's result is the kernel's output array viewed [2, 16, 64, 64], element by
    element: at an index with image b, channel l and position n both are the weighted sum less the source. -/
theorem values_eq (m : (ℓ : Loc Cert.KernelIdeal.nD Cert.KernelIdeal.τ Cert.KernelIdeal.sig) → Buf (Elt Ideal) ℓ)
    (c : Dev Cert.KernelIdeal.nD)
    (hx0 : ∀ i, ∃ t : ℝ, (m ((c.tc : Thread Cert.KernelIdeal.nD Cert.KernelIdeal.τ).loc Cert.KernelIdeal.main_arg0) : FVec Ideal Cert.KernelIdeal.S2x16x64x64 .f32) i = ((t : ℝ) : EReal))
    (hx1 : ∀ i, ∃ t : ℝ, (m ((c.tc : Thread Cert.KernelIdeal.nD Cert.KernelIdeal.τ).loc Cert.KernelIdeal.main_arg1) : FVec Ideal Cert.KernelIdeal.S2x5x64x64 .f32) i = ((t : ℝ) : EReal)) :
    Cert.ReferenceIdeal.Read.val_main_v20 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = shapeCast Cert.KernelIdeal.S2x16x64x64 (Cert.KernelIdeal.Whole.outArr m c)
          Cert.KernelIdeal.Gen.shapeCasts_S2x16x4096_S2x16x64x64 := by
  funext i
  obtain ⟨b, l, n, hi⟩ : ∃ (b : Fin 2) (l : Fin 16) (n : Fin 4096), Cert.ReferenceIdeal.Read.idx_main_v19 i = ix3 b l n :=
    ⟨_, _, _, eq_ix3 _⟩
  rw [Cert.ReferenceIdeal.RefValue.result_at _ _ i b l n hi, Cert.ReferenceIdeal.RefValue.reshape_apply, hi]
  show _ = Cert.KernelIdeal.Step.filtered (Cert.KernelIdeal.Gen.V m c Cert.KernelIdeal.main_v13)
    (Cert.KernelIdeal.Gen.V m c Cert.KernelIdeal.main_v4) (Cert.KernelIdeal.Gen.V m c Cert.KernelIdeal.main_v11)
    (Cert.KernelIdeal.Gen.V m c Cert.KernelIdeal.main_v9) (Cert.KernelIdeal.Gen.V m c Cert.KernelIdeal.main_v0) (ix3 b l n)
  rw [Cert.KernelIdeal.Prefix.V_v13, Cert.KernelIdeal.Prefix.V_v4, Cert.KernelIdeal.Prefix.V_v11, Cert.KernelIdeal.Prefix.V_v9,
    Cert.KernelIdeal.Prefix.V_v0, Cert.Bridge.kernel_eq_reference _ _ hx0 hx1 b l n]
  refine congrArg₂ (· - ·) rfl ?_
  rw [← hi]
  exact (Cert.ReferenceIdeal.RefValue.source_at _ i).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, for finite inputs, both programs run and end with equal results. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx0, hx1⟩ := Cert.Finite.reals_of_pre _ _ (hpre c)
  rw [(hagree c).1, (hagree c).2, Cert.ReferenceIdeal.Read.val_main_v20_eq]
  exact values_eq m c hx0 hx1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
